-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4096x256 .f32) (main_arg1 : FVec F S256x256 .f32) (main_arg2 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4096x256 : Shape := ⟨2, ![4096, 256]⟩
abbrev S256x256 : Shape := ⟨2, ![256, 256]⟩
abbrev S256 : Shape := ⟨1, ![256]⟩
abbrev S1x256 : Shape := ⟨2, ![1, 256]⟩
abbrev S512x256 : Shape := ⟨2, ![512, 256]⟩
abbrev S256x4096 : Shape := ⟨2, ![256, 4096]⟩
abbrev S512x4096 : Shape := ⟨2, ![512, 4096]⟩
abbrev S4096 : Shape := ⟨1, ![4096]⟩
abbrev S1x4096 : Shape := ⟨2, ![1, 4096]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256, .f32⟩
  | .hbm, ⟨3, _⟩ => ⟨S1x256, .f32⟩
  | .hbm, ⟨4, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S4096x256, .f32⟩
  | .local _ .vmem, ⟨3, _⟩ => ⟨S256x256, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  transposes_S4096x256_p1_0_S256x4096 : S4096x256.Transposes [1, 0] S256x4096
  reduces_S4096x256_S4096 : S4096x256.Reduces [1] S4096
  shapeCasts_S4096_S1x4096 : S4096.ShapeCasts S1x4096
  shapeCasts_S1x4096_S1x4096 : S1x4096.ShapeCasts S1x4096
  broadcasts_S1x4096_S512x4096 : S1x4096.Broadcasts S512x4096
  reduces_S512x4096_S512 : S512x4096.Reduces [1] S512
  natLt_1_32 : 1 < 32
  reduces_S512x256_S512 : S512x256.Reduces [1] S512
  inb_S256x256_S256x256_0_0 : ∀ a, (![0, 0] : Fin 2 → Nat) a + S256x256.size a ≤ S256x256.size a
  h_S256x256 : 0 < S256x256.numel
  reduces_S256x256_S256 : S256x256.Reduces [1] S256
  shapeCasts_S512_S512x1 : S512.ShapeCasts S512x1
  broadcasts_S512x1_S512x256 : S512x1.Broadcasts S512x256
  broadcasts_S1x256_S512x256 : S1x256.Broadcasts S512x256
  inb_S1x256_S1x256_0_0 : ∀ a, (![0, 0] : Fin 2 → Nat) a + S1x256.size a ≤ S1x256.size a
  h_S1x256 : 0 < S1x256.numel
  shapeCasts_S1x256_S256 : S1x256.ShapeCasts S256
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)

variable [Facts₀]

def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S256 : Shape := ⟨1, ![256]⟩
abbrev S256x4096 : Shape := ⟨2, ![256, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x256 : Shape := ⟨2, ![1, 256]⟩

abbrev nBuf : Space → Nat
  | .hbm => 39
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256, .f32⟩
  | .hbm, ⟨3, _⟩ => ⟨S256x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096x4096, .i1⟩
  | .hbm, ⟨16, _⟩ => ⟨S4096x4096, .i1⟩
  | .hbm, ⟨17, _⟩ => ⟨S4096x4096, .f32⟩
  | .hbm, ⟨18, _⟩ => ⟨S4096x256, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .i1⟩
  | .hbm, ⟨25, _⟩ => ⟨S4096, .i1⟩
  | .hbm, ⟨26, _⟩ => ⟨S4096x1, .i1⟩
  | .hbm, ⟨27, _⟩ => ⟨S4096x1, .f32⟩
  | .hbm, ⟨28, _⟩ => ⟨S4096x256, .f32⟩
  | .hbm, ⟨29, _⟩ => ⟨S_, .f32⟩
  | .hbm, ⟨30, _⟩ => ⟨S_, .f32⟩
  | .hbm, ⟨31, _⟩ => ⟨S4096x256, .i1⟩
  | .hbm, ⟨32, _⟩ => ⟨S4096x256, .f32⟩
  | .hbm, ⟨33, _⟩ => ⟨S4096x256, .f32⟩
  | .hbm, ⟨34, _⟩ => ⟨S256x256, .f32⟩
  | .hbm, ⟨35, _⟩ => ⟨S4096x256, .f32⟩
  | .hbm, ⟨36, _⟩ => ⟨S1x256, .f32⟩
  | .hbm, ⟨37, _⟩ => ⟨S4096x256, .f32⟩
  | .hbm, ⟨38, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  transposes_S4096x256_S256x4096_1_0 : S4096x256.Transposes [1, 0] S256x4096
  bcast_S_S4096x4096 : S_.BroadcastsInDim S4096x4096 (![] : Fin 0 → Fin S4096x4096.rank)
  reducesTo_S4096x256_S4096_d1 : S4096x256.ReducesTo [1] S4096
  h_S_ : 0 < S_.numel
  bcast_S_S4096 : S_.BroadcastsInDim S4096 (![] : Fin 0 → Fin S4096.rank)
  reducesTo_S4096x4096_S4096_d1 : S4096x4096.ReducesTo [1] S4096
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S_S4096x256 : S_.BroadcastsInDim S4096x256 (![] : Fin 0 → Fin S4096x256.rank)
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x256_S256x4096_S4096x4096_1_0_0_1_n_n_wf : DotDims.WF S4096x256 S256x4096 S4096x4096 [1] [0] [0] [1] [] []
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.Spec.lean ====
/-
  What the two programs compute, as functions of the argument arrays, index by index, on the extended reals.

  The inputs are `x` (4096 rows of 256 features), `W` (256 × 256) and `b` (256). Write `gram r j = ∑ₖ x r k · x j k`
  for the Gram matrix of the rows, and call row `j` NEAR row `r` when `th ≤ (gram r j)²` (`th` the threshold, the
  single-precision word nearest 0.85). A NEIGHBOUR of `r` is a near row other than `r`.

  The reference averages, over the 256 features, the sum of the neighbours' feature vectors, gets one number per row
  (zero for a row with no neighbour), spreads it over a whole feature row and applies the linear layer:
      refOut r h = ∑_f agg r · W h f + b h,     agg r = (∑_f ∑_{j neighbour of r} x j f) / 256  or  0.

  The kernel never forms the neighbour sums feature by feature: it sums the ROW SUMS of all near rows, the row itself
  included, and takes the row's own contribution out again — its own squared norm `gram r r` decides whether it was in —;
  it counts the near rows the same way to know whether a neighbour exists; and it multiplies the resulting number
  by the row sums of `W`:
      kernelOut r h = s r · (∑_f W h f) + b h,  s r = (∑_{j near r} rowsum j − [r near r] · rowsum r) / 256  or  0.

  The two agree when every entry of `x` and `W` is a real number: a sum of sums may then be exchanged, a common
  factor taken out of a sum, and a term subtracted after having been added. (With an infinite entry none of the three
  is a law of the extended reals.) That is proved in Proof/Algebra.lean; here are only the definitions.

  The kernel works on one block of 512 rows at a time, against the whole of `x`: `kernelBlk` is its formula on the
  block's rows `xb` and the whole array `xa`, and `kernelBlk_rows` says that on rows of `x` it is `kernelOut`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The three argument arrays, and a block of 512 rows, as functions of an index into the literal shapes. -/
abbrev XArr : Type := (⟨2, ![4096, 256]⟩ : Shape).Idx → EReal
abbrev XBlk : Type := (⟨2, ![512, 256]⟩ : Shape).Idx → EReal
abbrev WArr : Type := (⟨2, ![256, 256]⟩ : Shape).Idx → EReal
abbrev BArr : Type := (⟨1, ![256]⟩ : Shape).Idx → EReal
/-- The bias as the kernel is handed it: one row of 256. -/
abbrev BRow : Type := (⟨2, ![1, 256]⟩ : Shape).Idx → EReal

/-- The threshold on the squared Gram entry, the one-half the kernel compares its count with, and the number of
    features: the three literals, as the extended reals their words denote. -/
def th : EReal := Ideal.ofBits .f32 0x3F59999A#32
def half : EReal := Ideal.ofBits .f32 0x3F000000#32
def nF : EReal := Ideal.ofBits .f32 0x43800000#32

/-! ## On whole arrays -/

/-- The Gram matrix of the rows of `x`. -/
def gram (x : XArr) (r j : Fin 4096) : EReal := ∑ k : Fin 256, x (ix2 r k) * x (ix2 j k)
/-- Row `j` is near row `r`: the squared Gram entry reaches the threshold. -/
def near (x : XArr) (r j : Fin 4096) : Prop := th ≤ gram x r j * gram x r j
instance (x : XArr) (r j : Fin 4096) : Decidable (near x r j) := by unfold near; infer_instance
/-- The sum of a row of `x`, and of a row of `W`. -/
def rowsum (x : XArr) (j : Fin 4096) : EReal := ∑ f : Fin 256, x (ix2 j f)
def wsum (W : WArr) (h : Fin 256) : EReal := ∑ f : Fin 256, W (ix2 h f)

/-! ### The reference -/

/-- Row `j` is a neighbour of row `r`: near it, and another row. -/
def nbr (x : XArr) (r j : Fin 4096) : Prop := near x r j ∧ r ≠ j
instance (x : XArr) (r j : Fin 4096) : Decidable (nbr x r j) := by unfold nbr; infer_instance
/-- Feature `f` of the sum of the neighbours' rows. -/
def nbrSum (x : XArr) (r : Fin 4096) (f : Fin 256) : EReal := ∑ j : Fin 4096, (if nbr x r j then (1 : EReal) else 0) * x (ix2 j f)
/-- Its mean over the features. -/
def nbrMean (x : XArr) (r : Fin 4096) : EReal := Ideal.div (∑ f : Fin 256, nbrSum x r f) nF
/-- The number the reference spreads over row `r`: the mean, or zero for a row without a neighbour. -/
def agg (x : XArr) (r : Fin 4096) : EReal := if ∃ j, nbr x r j then nbrMean x r else 0
/-- The reference's result. -/
def refOut (x : XArr) (W : WArr) (b : BArr) (i : (⟨2, ![4096, 256]⟩ : Shape).Idx) : EReal :=
  (∑ f : Fin 256, agg x (i 0) * W (ix2 (i 1) f)) + b (ix1 (i 1))

/-! ### The kernel -/

/-- The row sums of all rows near `r`, less the row's own if it is near itself. -/
def nearSum (x : XArr) (r : Fin 4096) : EReal :=
  (∑ j : Fin 4096, if near x r j then rowsum x j else 0) - (if near x r r then (1 : EReal) else 0) * rowsum x r
/-- The number of rows near `r`, less one if it is near itself. -/
def nearCount (x : XArr) (r : Fin 4096) : EReal :=
  (∑ j : Fin 4096, if near x r j then (1 : EReal) else 0) - (if near x r r then (1 : EReal) else 0)
/-- The kernel's number for row `r`. -/
def scal (x : XArr) (r : Fin 4096) : EReal := if half < nearCount x r then Ideal.div (nearSum x r) nF else 0
/-- The kernel's result. -/
def kernelOut (x : XArr) (W : WArr) (b : BArr) (i : (⟨2, ![4096, 256]⟩ : Shape).Idx) : EReal :=
  scal x (i 0) * wsum W (i 1) + b (ix1 (i 1))

/-! ## On one block of rows against the whole array -/

/-- The Gram entries of a block's row `p` against the rows of the whole array, and the row's squared norm. -/
def gramB (xb : XBlk) (xa : XArr) (p : Fin 512) (j : Fin 4096) : EReal := ∑ k : Fin 256, xb (ix2 p k) * xa (ix2 j k)
def sqB (xb : XBlk) (p : Fin 512) : EReal := ∑ k : Fin 256, xb (ix2 p k) * xb (ix2 p k)
def rowsumB (xb : XBlk) (p : Fin 512) : EReal := ∑ f : Fin 256, xb (ix2 p f)
def nearSumB (xb : XBlk) (xa : XArr) (p : Fin 512) : EReal :=
  (∑ j : Fin 4096, if th ≤ gramB xb xa p j * gramB xb xa p j then rowsum xa j else 0)
    - (if th ≤ sqB xb p * sqB xb p then (1 : EReal) else 0) * rowsumB xb p
def nearCountB (xb : XBlk) (xa : XArr) (p : Fin 512) : EReal :=
  (∑ j : Fin 4096, if th ≤ gramB xb xa p j * gramB xb xa p j then (1 : EReal) else 0)
    - (if th ≤ sqB xb p * sqB xb p then (1 : EReal) else 0)
def scalB (xb : XBlk) (xa : XArr) (p : Fin 512) : EReal :=
  if half < nearCountB xb xa p then Ideal.div (nearSumB xb xa p) nF else 0
/-- The kernel's formula for entry `(p, h)` of a block. -/
def kernelBlk (xb : XBlk) (xa : XArr) (W : WArr) (b2 : BRow) (p : Fin 512) (h : Fin 256) : EReal :=
  scalB xb xa p * wsum W h + b2 (ix2 (0 : Fin 1) h)

/-- On a block whose row `p` is row `r` of `x`, and with the bias row holding `b`, the block formula is the array's. -/
theorem kernelBlk_rows (x : XArr) (W : WArr) (b : BArr) (xb : XBlk) (b2 : BRow) (p : Fin 512) (r : Fin 4096) (h : Fin 256)
    (hx : ∀ k : Fin 256, xb (ix2 p k) = x (ix2 r k)) (hb : b2 (ix2 (0 : Fin 1) h) = b (ix1 h)) :
    kernelBlk xb x W b2 p h = kernelOut x W b (ix2 r h) := by
  have hg : ∀ j, gramB xb x p j = gram x r j := fun j => by
    unfold gramB gram; exact Finset.sum_congr rfl fun k _ => by rw [hx k]
  have hs : sqB xb p = gram x r r := by
    unfold sqB gram; exact Finset.sum_congr rfl fun k _ => by rw [hx k]
  have hr : rowsumB xb p = rowsum x r := by
    unfold rowsumB rowsum; exact Finset.sum_congr rfl fun k _ => by rw [hx k]
  unfold kernelBlk kernelOut scalB scal nearCountB nearCount nearSumB nearSum near
  simp only [hg, hs, hr, hb]

end Cert.Spec

end
-- ==== Proof.Algebra.lean ====
/-
  The algebra: on real entries the reference's number for a row and the kernel's are the same, and the
  linear layer may be applied to it before or after summing the weights.

  Three facts about finite sums of real numbers carry it:
    * a sum over features of sums over rows may be summed in the other order;
    * a constant factor comes out of a sum;
    * summing over the rows near `r` other than `r` is summing over all near rows and taking the term of `r`
      out again if it was in.
  None of them is a law of the extended reals, so each array is first written as the image of a real array, the
  equation is proved among real numbers, and the coercion is pushed through sums, products and differences.
-/
import proofs.«155707_g65481071399741_fold_wed_c4_273_3_alg».proof.Proof.Spec

noncomputable section

open scoped BigOperators

namespace Cert.Spec

open Idealize.ShloMosaic Idealize.ShloMosaic.ValueIdx

/-! ## The two literals that are evaluated -/

/-- The word `0x3F000000`: sign +, exponent 126, fraction 0, that is `2²³ · 2⁻²⁴ = 1/2`. -/
theorem half_eq : half = ((1 / 2 : ℝ) : EReal) := by
  simp [half, Ideal.ofBits, Ideal.ieee]
  rw [← EReal.coe_mul]
  norm_num

/-- The word `0x43800000`: sign +, exponent 135, fraction 0, that is `2²³ · 2⁻¹⁵ = 256`. -/
theorem nF_eq : nF = ((256 : ℝ) : EReal) := by
  simp [nF, Ideal.ofBits, Ideal.ieee]
  rw [← EReal.coe_mul]
  norm_num

/-! ## Finite sums of real numbers inside the extended reals -/

section General

variable {ι κ : Type*}

/-- The coercion of a finite sum of reals is the sum of the coercions. -/
theorem coe_sum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An indicator, and an indicator times nothing, as coercions. -/
theorem ite_one_coe (c : Prop) [Decidable c] : (if c then (1 : EReal) else 0) = ((if c then 1 else 0 : ℝ) : EReal) := by
  split_ifs <;> simp

theorem ite_coe (c : Prop) [Decidable c] (v : ℝ) : (if c then (v : EReal) else 0) = ((if c then v else 0 : ℝ) : EReal) := by
  split_ifs <;> simp

variable [Fintype ι] [Fintype κ] [DecidableEq ι]

/-- Among reals: with `Q j` meaning "`P j` and `j` is not `r`", the `Q`-sum is the `P`-sum less the term of `r`
    if `P r`. Each term of the `P`-sum is the `Q`-term plus, at `j = r` only, the term of `r`. -/
theorem sum_off_diag (P Q : ι → Prop) [DecidablePred P] [DecidablePred Q] (r : ι) (hQ : ∀ j, Q j ↔ (P j ∧ r ≠ j))
    (A : ι → ℝ) :
    ∑ j, (if Q j then (1 : ℝ) else 0) * A j = (∑ j, if P j then A j else 0) - (if P r then (1 : ℝ) else 0) * A r := by
  have key : ∀ j, (if P j then A j else 0)
      = (if Q j then (1 : ℝ) else 0) * A j + (if r = j then (if P r then (1 : ℝ) else 0) * A r else 0) := by
    intro j
    by_cases hj : r = j
    · subst hj
      have hn : ¬ Q r := fun h => ((hQ r).1 h).2 rfl
      simp [hn]
    · have hq : Q j ↔ P j := by rw [hQ]; exact ⟨fun h => h.1, fun h => ⟨h, hj⟩⟩
      simp [hj, hq]
  simp_rw [key, Finset.sum_add_distrib, Finset.sum_ite_eq, Finset.mem_univ, if_true]
  ring

/-- The same in the extended reals, for a real array `a` of rows `j` and features `f`: the features' total of the
    `Q`-rows' sum is the `P`-rows' total of row sums less row `r`'s if `P r`; and the common value is a real number. -/
theorem sum_sum_off_diag (P Q : ι → Prop) [DecidablePred P] [DecidablePred Q] (r : ι) (hQ : ∀ j, Q j ↔ (P j ∧ r ≠ j))
    (a : ι → κ → ℝ) :
    ∃ t : ℝ,
      (∑ f : κ, ∑ j : ι, (if Q j then (1 : EReal) else 0) * ((a j f : ℝ) : EReal)) = (t : EReal) ∧
      ((∑ j : ι, if P j then (∑ f : κ, ((a j f : ℝ) : EReal)) else 0)
        - (if P r then (1 : EReal) else 0) * ∑ f : κ, ((a r f : ℝ) : EReal)) = (t : EReal) := by
  refine ⟨(∑ j, if P j then (∑ f, a j f) else 0) - (if P r then (1 : ℝ) else 0) * ∑ f, a r f, ?_, ?_⟩
  · rw [← sum_off_diag P Q r hQ (fun j => ∑ f, a j f)]
    simp_rw [ite_one_coe, ← EReal.coe_mul, ← coe_sum]
    rw [Finset.sum_comm]
    simp_rw [Finset.mul_sum]
  · simp_rw [← coe_sum, ite_coe, ite_one_coe, ← EReal.coe_mul, ← coe_sum, ← EReal.coe_sub]

/-- The count: the number of `P`-rows less one if `P r` is the number of `Q`-rows. -/
theorem count_off_diag (P Q : ι → Prop) [DecidablePred P] [DecidablePred Q] (r : ι) (hQ : ∀ j, Q j ↔ (P j ∧ r ≠ j)) :
    ((∑ j : ι, if P j then (1 : EReal) else 0) - (if P r then (1 : EReal) else 0))
      = (((Finset.univ.filter Q).card : ℝ) : EReal) := by
  have h := sum_off_diag P Q r hQ (fun _ => (1 : ℝ))
  simp only [mul_one] at h
  rw [Finset.sum_boole] at h
  rw [h]
  simp_rw [ite_one_coe, ← coe_sum, ← EReal.coe_sub]

/-- One half is below a natural number exactly when the number is not zero. -/
theorem half_lt_card (Q : ι → Prop) [DecidablePred Q] :
    ((1 / 2 : ℝ) : EReal) < (((Finset.univ.filter Q).card : ℝ) : EReal) ↔ ∃ j, Q j := by
  rw [EReal.coe_lt_coe_iff]
  constructor
  · intro h
    have hpos : 0 < (Finset.univ.filter Q).card := by
      by_contra hc
      have h0 : (Finset.univ.filter Q).card = 0 := by omega
      rw [h0] at h
      norm_num at h
    obtain ⟨j, hj⟩ := Finset.card_pos.1 hpos
    exact ⟨j, (Finset.mem_filter.1 hj).2⟩
  · rintro ⟨j, hj⟩
    have hpos : 0 < (Finset.univ.filter Q).card :=
      Finset.card_pos.2 ⟨j, Finset.mem_filter.2 ⟨Finset.mem_univ j, hj⟩⟩
    have h1 : (1 : ℝ) ≤ ((Finset.univ.filter Q).card : ℝ) := by exact_mod_cast hpos
    linarith

end General

/-! ## The two programs' numbers for a row -/

/-- On a real array the reference's number for row `r` and the kernel's are one real number. -/
theorem agg_eq_scal (x : XArr) (xr : (⟨2, ![4096, 256]⟩ : Shape).Idx → ℝ) (hxr : ∀ i, x i = ((xr i : ℝ) : EReal))
    (r : Fin 4096) : ∃ s : ℝ, agg x r = (s : EReal) ∧ scal x r = (s : EReal) := by
  have hQ : ∀ j, nbr x r j ↔ (near x r j ∧ r ≠ j) := fun j => Iff.rfl
  obtain ⟨t, ht1, ht2⟩ := sum_sum_off_diag (near x r) (nbr x r) r hQ (fun j (f : Fin 256) => xr (ix2 j f))
  have hsum : (∑ f : Fin 256, nbrSum x r f) = (t : EReal) := by
    simp only [nbrSum, hxr]
    exact ht1
  have hnear : nearSum x r = (t : EReal) := by
    simp only [nearSum, rowsum, hxr]
    exact ht2
  have hcnt : nearCount x r = (((Finset.univ.filter (nbr x r)).card : ℝ) : EReal) := by
    unfold nearCount
    exact count_off_diag (near x r) (nbr x r) r hQ
  have hiff : half < nearCount x r ↔ ∃ j, nbr x r j := by
    rw [half_eq, hcnt]
    exact half_lt_card (nbr x r)
  have h256 : (256 : ℝ) ≠ 0 := by norm_num
  by_cases hex : ∃ j, nbr x r j
  · refine ⟨t * (1 / 256 : ℝ), ?_, ?_⟩
    · unfold agg nbrMean
      rw [if_pos hex, hsum, nF_eq, Ideal.div_coe h256, ← EReal.coe_mul]
    · unfold scal
      rw [if_pos (hiff.2 hex), hnear, nF_eq, Ideal.div_coe h256, ← EReal.coe_mul]
  · refine ⟨0, ?_, ?_⟩
    · unfold agg
      rw [if_neg hex, EReal.coe_zero]
    · unfold scal
      rw [if_neg (fun h => hex (hiff.1 h)), EReal.coe_zero]

/-! ## The results -/

/-- On real `x` and `W` the reference and the kernel return the same array. -/
theorem refOut_eq_kernelOut (x : XArr) (W : WArr) (b : BArr)
    (hx : ∀ i, ∃ v : ℝ, x i = (v : EReal)) (hW : ∀ i, ∃ v : ℝ, W i = (v : EReal))
    (i : (⟨2, ![4096, 256]⟩ : Shape).Idx) : refOut x W b i = kernelOut x W b i := by
  choose xr hxr using hx
  choose Wr hWr using hW
  obtain ⟨s, h1, h2⟩ := agg_eq_scal x xr hxr (i 0)
  unfold refOut kernelOut wsum
  rw [h1, h2]
  refine congrArg (fun v : EReal => v + b (ix1 (i 1))) ?_
  simp only [hWr]
  simp_rw [← EReal.coe_mul, ← coe_sum, ← EReal.coe_mul, Finset.mul_sum]

end Cert.Spec

end
-- ==== Proof.Finite.lean ====
/-
  From the precondition to real entries.

  The precondition is the conjunction of three statements "every entry v of the array has |v| < +∞", one per
  argument array, each stated as a conjunction (a fold by "and" from 1) over all the array's indices of the one-bit
  answers of the comparisons. A conjunction that is 1 has every conjunct 1; the comparison at an index being 1 says
  max v (-v) < ⊤ on the extended reals; and an extended real is ⊥, a real number or ⊤, of which only a real number has
  max v (-v) below ⊤ (for ⊥ the negative is ⊤, for ⊤ the number itself is). So every entry of the first two arrays,
  x and W, is a real number.
-/
import proofs.«155707_g65481071399741_fold_wed_c4_273_3_alg».proof.Defs
import proofs.«155707_g65481071399741_fold_wed_c4_273_3_alg».proof.Proof.Gen.Pre_finite_inputs
import Idealize.ShloMosaic.Lib.ReduceAll
import Idealize.ShloMosaic.Lib.ValueIdx

noncomputable section

namespace Cert.Proof.Finite

open Idealize.ShloMosaic Idealize.ShloMosaic.ValueIdx Idealize.SL.Sem

/-- The scalar shape has one index. -/
instance : Subsingleton Cert.Pre_finite_inputs.S_.Idx := ⟨fun a b => funext fun d => d.elim0⟩

/-- The single-precision word of +∞ denotes the top extended real. -/
theorem inf_eq_top : Ideal.ofBits .f32 0x7F800000#32 = (⊤ : EReal) := by
  simp [Ideal.ofBits, Ideal.ieee]

/-- An extended real whose absolute value, max v (-v), is below ⊤ is a real number. -/
theorem real_of_abs_lt_top (x : EReal) (h : max x (-x) < (⊤ : EReal)) : ∃ v : ℝ, x = (v : EReal) := by
  induction x using EReal.rec with
  | bot => simp at h
  | coe v => exact ⟨v, rfl⟩
  | top => simp at h

/-- The one-bit answer of the comparison |x| < +∞ being 1 makes x a real number. -/
theorem real_of_cmp (x : EReal)
    (h : FloatOps.cmpf (F := Ideal) (φ := .f32) .olt (FloatOps.hostAbsf (F := Ideal) (φ := .f32) x) (FloatOps.ofBits (F := Ideal) .f32 0x7F800000#32) = 1#1) :
    ∃ v : ℝ, x = (v : EReal) := by
  refine real_of_abs_lt_top x ?_
  have h' : Ideal.cmp .olt (max x (-x)) (Ideal.ofBits .f32 0x7F800000#32) = 1#1 := h
  rw [inf_eq_top] at h'
  unfold Ideal.cmp at h'
  by_contra hn
  simp [hn] at h'

/-- "all(|a| < +∞)" being 1 for an array a of any shape makes every entry of a a real number. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (e : Host.reduce IntOp.andi
        (cmpf .olt (Host.absf a) (broadcastInDim s ![] hb (constant Cert.Pre_finite_inputs.S_ .f32 0x7F800000#32)))
        (constantI Cert.Pre_finite_inputs.S_ 1 1#1) hr hu ix0 = 1#1)
    (i : s.Idx) : ∃ v : ℝ, a i = (v : EReal) :=
  real_of_cmp (a i) (Host.reduce_andi_all _ _ hr hu ix0 e i)

theorem real_of_pre [hP : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ v : ℝ, m ((c.tc : Thread Cert.KernelIdeal.nD Cert.KernelIdeal.τ).loc Cert.KernelIdeal.main_arg0) i = (v : EReal))
    ∧ (∀ i, ∃ v : ℝ, m ((c.tc : Thread Cert.KernelIdeal.nD Cert.KernelIdeal.τ).loc Cert.KernelIdeal.main_arg1) i = (v : EReal)) := by
  have e := congrFun (h c) ix0
  dsimp only [Cert.Pre_finite_inputs.fn, andi] at e
  obtain ⟨⟨e0, e1⟩, -⟩ := (IntOp.andi_eq_one.1 e).imp_left IntOp.andi_eq_one.1
  exact ⟨all_real _ _ _ _ e0, all_real _ _ _ _ e1⟩

end Cert.Proof.Finite

end
-- ==== Proof.Payload.lean ====
/-
  The arithmetic of the kernel's body on one block of 512 rows, read entry by entry on the extended reals.

  The body forms, for the block's row `p` and every row `j` of the whole array, the inner product `g p j` of the two
  rows (a product of the block with the transposed array, accumulated from zero), and calls `j` NEAR `p` when the
  square `g p j · g p j` reaches the threshold. It then sums two things along the 4096 lanes of row `p`: the row sums
  of the near rows (each lane holds the row sum of its own row, or zero where the row is not near) and the number of near
  rows (each lane holds the bit "near" widened to a word and read as the number 0 or 1); the row's own
  squared norm decides, by the same threshold, the bit `s p` "the row is near itself". The number kept for row `p` is
  `(sum − s p · rowsum p) / 256` when `count − s p` exceeds one half, and zero otherwise; it is spread along the 256
  columns, multiplied by the row sums of `W` (spread along the 512 rows) and the bias row is added.

  Each lemma below reads one stage at an index given by its coordinates:
  • a lane sum of a matrix at `r` is the sum over the columns of row `r`;
  • a one-bit word that holds the truth of `P`, widened to 32 bits and read as a signed integer, is the real 1 or 0,
    and a select on that bit is the `if` on `P`;
  • a vector viewed as a column and spread over columns reads its `p`-th entry at `(p, c)`; viewed as a row and spread
    over rows, its `c`-th entry;
  • the block product at `(p, j)` is `∑ₖ xb p k · xa j k`: the contraction index is re-indexed by its one coordinate,
    and the transposed array at `(k, j)` is the array at `(j, k)`.
  The last theorems put the stages together: the per-row number is `Spec.scalB`, the spread row sums of `W` are
  `Spec.wsum`, and the stored value is `Spec.kernelBlk`.
-/
import proofs.«155707_g65481071399741_fold_wed_c4_273_3_alg».proof.Proof.Gen.KernelIdeal.Skeleton
import proofs.«155707_g65481071399741_fold_wed_c4_273_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal

/-! ## Three general readings -/

/-- A lane sum (a sum along axis 1) of an `a × b` matrix, read at `r`: the sum over the `b` columns of row `r`. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  refine Fin.ext ?_
  match c with
  | ⟨0, _⟩ => rfl
  | ⟨1, _⟩ => rfl

/-- The one-bit word holding the truth of `P`, widened to 32 bits and read as a signed integer, is the number 1 or 0. -/
theorem bit_to_real (P : Prop) [Decidable P] :
    FloatOps.sitofp (F := Ideal) .f32 ((BitVec.ofBool (decide P)).setWidth 32) = if P then (1 : EReal) else 0 := by
  by_cases hP : P
  · rw [if_pos hP, decide_eq_true hP]
    show (((BitVec.setWidth 32 (BitVec.ofBool true)).toInt : ℝ) : EReal) = 1
    rw [show (BitVec.setWidth 32 (BitVec.ofBool true)).toInt = 1 by decide]
    simp
  · rw [if_neg hP, decide_eq_false hP]
    show (((BitVec.setWidth 32 (BitVec.ofBool false)).toInt : ℝ) : EReal) = 0
    rw [show (BitVec.setWidth 32 (BitVec.ofBool false)).toInt = 0 by decide]
    simp

/-- A select on the one-bit word holding the truth of `P` is the `if` on `P`. -/
theorem select_ofBool {α : Type} (P : Prop) [Decidable P] (x y : α) :
    Scalar.select (BitVec.ofBool (decide P)) x y = if P then x else y := by
  by_cases hP : P
  · rw [if_pos hP, decide_eq_true hP]; exact select_one x y
  · rw [if_neg hP, decide_eq_false hP]; exact select_zero x y

/-! ## Vectors spread over a matrix -/

/-- `a` numbers viewed as a column and spread along `b` columns: at `(p, c)` the `p`-th number. -/
theorem colSpread_apply {α : Type} {a b : ℕ} (s : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ s hc) hb (ix2 p c) = s (ix1 p) := by
  refine (broadcastTo_apply (shapeCast ⟨2, ![a, 1]⟩ s hc) hb (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · refine shapeCast_apply s hc (ix2 p (0 : Fin 1)) (ix1 p) ?_
    rw [Shape.rowMajor_val_one, Shape.rowMajor_val_two]
    show p.val = p.val * 1 + 0
    omega

/-- `b` numbers viewed as a row and spread along `a` rows: at `(p, c)` the `c`-th number. -/
theorem rowSpread_apply {α : Type} {a b : ℕ} (r : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ r hc) hb (ix2 p c) = r (ix1 c) :=
  (broadcastTo_1b_ab_apply _ hb p c).trans (shapeCast_a_1a_apply r hc 0 c)

/-- The same through one more view of the row as a row, which changes nothing. -/
theorem rowSpread2_apply {α : Type} {a b : ℕ} (r : (⟨1, ![b]⟩ : Shape).Idx → α)
    (hc : (⟨1, ![b]⟩ : Shape).ShapeCasts ⟨2, ![1, b]⟩) (hc' : (⟨2, ![1, b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ (shapeCast ⟨2, ![1, b]⟩ r hc) hc') hb (ix2 p c) = r (ix1 c) :=
  (broadcastTo_1b_ab_apply _ hb p c).trans
    ((congrFun (shapeCast_self (shapeCast ⟨2, ![1, b]⟩ r hc) hc') (ix2 (0 : Fin 1) c)).trans (shapeCast_a_1a_apply r hc 0 c))

/-- A row of `b` numbers flattened, viewed as a row again and spread along `a` rows: at `(p, c)` its `c`-th number. -/
theorem biasSpread_apply {α : Type} {a b : ℕ} (v : (⟨2, ![1, b]⟩ : Shape).Idx → α)
    (hc : (⟨2, ![1, b]⟩ : Shape).ShapeCasts ⟨1, ![b]⟩) (hc' : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v hc) hc') hb (ix2 p c) = v (ix2 (0 : Fin 1) c) :=
  (rowSpread_apply (shapeCast ⟨1, ![b]⟩ v hc) hc' hb p c).trans (shapeCast_1a_a_apply v hc c)

/-! ## The block product -/

/-- The dimension numbers of the block product: the block's columns against the transposed array's rows. -/
abbrev D : DotDims S512x256 S256x4096 S512x4096 := dot_S512x256_S256x4096_S512x4096_1_0_0_1_n_n

theorem lhs_0 (i : S512x4096.Idx) (q : D.contr.Idx) : (D.lhsIdx i q 0).val = (i 0).val := by
  unfold DotDims.lhsIdx
  rw [dif_neg (show ¬(0 : Fin S512x256.rank) ∈ D.lhsBatch by decide), dif_pos (show (0 : Fin S512x256.rank) ∈ D.lhsNonContracting by decide)]
  rfl
theorem lhs_1 (i : S512x4096.Idx) (q : D.contr.Idx) : (D.lhsIdx i q 1).val = (q ⟨0, by decide⟩).val :=
  D.lhsIdx_val_of_single rfl i q
theorem rhs_0 (i : S512x4096.Idx) (q : D.contr.Idx) : (D.rhsIdx i q 0).val = (q ⟨0, by decide⟩).val :=
  D.rhsIdx_val_of_single rfl i q
theorem rhs_1 (i : S512x4096.Idx) (q : D.contr.Idx) : (D.rhsIdx i q 1).val = (i 1).val := by
  unfold DotDims.rhsIdx
  rw [dif_neg (show ¬(1 : Fin S256x4096.rank) ∈ D.rhsBatch by decide), dif_pos (show (1 : Fin S256x4096.rank) ∈ D.rhsNonContracting by decide)]
  rfl

/-- The product of the block with the transposed array, accumulated from zero, at `(p, j)`: the inner product of the
    block's row `p` and the array's row `j`. -/
theorem gram_apply (v0 : FVec Ideal S512x256 .f32) (v1 : FVec Ideal S4096x256 .f32)
    (ht : S4096x256.Transposes [1, 0] S256x4096) (p : Fin 512) (j : Fin 4096) :
    matmul (F := Ideal) D none v0 (transpose S256x4096 [1, 0] v1 ht) (constant (F := Ideal) S512x4096 .f32 0x00000000#32) (ix2 p j)
      = Spec.gramB v0 v1 p j := by
  unfold Spec.gramB
  refine (Ideal.matmul_constant_zero_apply D none v0 (transpose S256x4096 [1, 0] v1 ht) (ix2 p j)).trans ?_
  rw [← Equiv.sum_comp (contrEquiv1 D 256 rfl rfl).symm]
  refine Finset.sum_congr rfl fun k _ => ?_
  have hk := contrEquiv1_symm_val D 256 rfl rfl k
  have el : D.lhsIdx (ix2 p j) ((contrEquiv1 D 256 rfl rfl).symm k) = ix2 p k := funext fun a => Fin.ext (by
    match a with
    | ⟨0, _⟩ => exact lhs_0 _ _
    | ⟨1, _⟩ => exact (lhs_1 _ _).trans hk)
  have er : D.rhsIdx (ix2 p j) ((contrEquiv1 D 256 rfl rfl).symm k) = ix2 k j := funext fun a => Fin.ext (by
    match a with
    | ⟨0, _⟩ => exact (rhs_0 _ _).trans hk
    | ⟨1, _⟩ => exact rhs_1 _ _)
  rw [el, er]
  exact congrArg (v0 (ix2 p k) * ·) (transpose_ix2_apply v1 ht k j)

/-! ## The threshold on a square -/

/-- "The square of the entry reaches the threshold", as the number 1 or 0. -/
theorem nearInd_apply {s : Shape} (A : FVec Ideal s .f32) (hlt : 1 < 32) (i : s.Idx) :
    (sitofp .f32 (extui 32 (cmpf .oge (mulf A A) (broadcast s (FloatOps.ofBits (F := Ideal) .f32 0x3F59999A#32))) hlt) : FVec Ideal s .f32) i
      = if Spec.th ≤ A i * A i then (1 : EReal) else 0 :=
  bit_to_real _

/-- The number of near rows: the lane sum of the 0-or-1 numbers, over a matrix whose row `p` is `g`. -/
theorem count_apply (G : FVec Ideal S512x4096 .f32) (p : Fin 512) (g : Fin 4096 → EReal) (hG : ∀ j, G (ix2 p j) = g j)
    (hlt : 1 < 32) (hr : S512x4096.Reduces [1] S512) (hφ : FKind.Formats .f32) (hacc : (0x00000000#32 : BitVec 32) = 0x00000000#32) :
    multiReduction (F := Ideal) .add [1] S512
        (sitofp .f32 (extui 32 (cmpf .oge (mulf G G) (broadcast S512x4096 (FloatOps.ofBits (F := Ideal) .f32 0x3F59999A#32))) hlt))
        0x00000000#32 hr hφ hacc (ix1 p)
      = ∑ j : Fin 4096, if Spec.th ≤ g j * g j then (1 : EReal) else 0 := by
  refine (laneSum_apply _ hr hφ hacc p).trans (Finset.sum_congr rfl fun j _ => ?_)
  refine (nearInd_apply G hlt (ix2 p j)).trans ?_
  rw [hG j]

/-- The sum over the near rows: the lane sum of a matrix that holds `ρ j` in lane `j` where row `j` is near and zero elsewhere. -/
theorem sum_apply (G R : FVec Ideal S512x4096 .f32) (p : Fin 512) (g ρ : Fin 4096 → EReal)
    (hG : ∀ j, G (ix2 p j) = g j) (hR : ∀ j, R (ix2 p j) = ρ j)
    (hr : S512x4096.Reduces [1] S512) (hφ : FKind.Formats .f32) (hacc : (0x00000000#32 : BitVec 32) = 0x00000000#32) :
    multiReduction (F := Ideal) .add [1] S512
        (select (cmpf .oge (mulf G G) (broadcast S512x4096 (FloatOps.ofBits (F := Ideal) .f32 0x3F59999A#32))) R
          (broadcast S512x4096 (FloatOps.ofBits (F := Ideal) .f32 0x00000000#32)))
        0x00000000#32 hr hφ hacc (ix1 p)
      = ∑ j : Fin 4096, if Spec.th ≤ g j * g j then ρ j else 0 := by
  refine (laneSum_apply _ hr hφ hacc p).trans (Finset.sum_congr rfl fun j _ => ?_)
  refine (select_ofBool (Spec.th ≤ G (ix2 p j) * G (ix2 p j)) (R (ix2 p j)) (Ideal.ofBits .f32 0x00000000#32)).trans ?_
  rw [hG j, hR j, Ideal.ofBits_zero_f32]

/-- "The row is near itself": the same bit on the square of a number `s` held at `p`. -/
theorem self_apply (sq : FVec Ideal S512 .f32) (p : Fin 512) (s : EReal) (hs : sq (ix1 p) = s) (hlt : 1 < 32) :
    (sitofp .f32 (extui 32 (cmpf .oge (mulf sq sq) (broadcast S512 (FloatOps.ofBits (F := Ideal) .f32 0x3F59999A#32))) hlt) : FVec Ideal S512 .f32) (ix1 p)
      = if Spec.th ≤ s * s then (1 : EReal) else 0 := by
  refine (nearInd_apply sq hlt (ix1 p)).trans ?_
  rw [hs]

/-- The number kept for row `p`, from the four numbers held at `p`: the count `c`, the bit `s`, the sum `t`, the row's own sum `r`. -/
theorem scal_apply (cnt self sum rs : FVec Ideal S512 .f32) (p : Fin 512) (c s t r : EReal)
    (hc : cnt (ix1 p) = c) (hs : self (ix1 p) = s) (ht : sum (ix1 p) = t) (hr : rs (ix1 p) = r) :
    select (cmpf .ogt (subf cnt self) (broadcast S512 (FloatOps.ofBits (F := Ideal) .f32 0x3F000000#32)))
        (divf (subf sum (mulf self rs)) (broadcast S512 (FloatOps.ofBits (F := Ideal) .f32 0x43800000#32)))
        (broadcast S512 (FloatOps.ofBits (F := Ideal) .f32 0x00000000#32)) (ix1 p)
      = if Spec.half < c - s then Ideal.div (t - s * r) Spec.nF else 0 := by
  refine (select_ofBool (Spec.half < cnt (ix1 p) - self (ix1 p))
    (Ideal.div (sum (ix1 p) - self (ix1 p) * rs (ix1 p)) Spec.nF) (Ideal.ofBits .f32 0x00000000#32)).trans ?_
  rw [hc, hs, ht, hr, Ideal.ofBits_zero_f32]

/-! ## The three payloads, and the stored value -/

/-- The per-row number, spread along the columns. -/
theorem pay2_apply (v0 : Vec Ideal S512x256 .f32) (v1 : Vec Ideal S4096x256 .f32) (p : Fin 512) (h : Fin 256) :
    Gen.k0_pay2 (F := Ideal) v0 v1 (ix2 p h) = Spec.scalB v0 v1 p := by
  unfold Gen.k0_pay2
  refine (colSpread_apply _ _ _ p h).trans ?_
  unfold Spec.scalB Spec.nearCountB Spec.nearSumB
  exact scal_apply _ _ _ _ p _ _ _ _
    (count_apply _ p (Spec.gramB v0 v1 p) (gram_apply v0 v1 _ p) _ _ _ _)
    (self_apply _ p (Spec.sqB v0 p) (laneSum_apply (mulf v0 v0) _ _ _ p) _)
    (sum_apply _ _ p (Spec.gramB v0 v1 p) (Spec.rowsum v1) (gram_apply v0 v1 _ p)
      (fun j => (rowSpread2_apply _ _ _ _ p j).trans (laneSum_apply v1 _ _ _ j)) _ _ _)
    (laneSum_apply v0 _ _ _ p)

/-- The row sums of `W`, spread along the rows. -/
theorem pay3_apply (v34 : Vec Ideal S256x256 .f32) (p : Fin 512) (h : Fin 256) :
    Gen.k0_pay3 (F := Ideal) v34 (ix2 p h) = Spec.wsum v34 h := by
  unfold Gen.k0_pay3
  exact (rowSpread_apply _ _ _ p h).trans (laneSum_apply v34 _ _ _ h)

/-- Their product plus the bias row. -/
theorem pay1_apply (v38 v39 : FVec Ideal S512x256 .f32) (v41 : Vec Ideal S1x256 .f32) (p : Fin 512) (h : Fin 256) :
    Gen.k0_pay1 (F := Ideal) v38 v39 v41 (ix2 p h) = v38 (ix2 p h) * v39 (ix2 p h) + v41 (ix2 (0 : Fin 1) h) := by
  unfold Gen.k0_pay1
  refine (addf_apply _ _ (ix2 p h)).trans (congrArg₂ (· + ·) (mulf_apply v38 v39 (ix2 p h)) ?_)
  exact biasSpread_apply v41 _ _ _ p h

/-- The value the body stores, entry by entry: the block formula. -/
theorem payload_apply (v0 : Vec Ideal Cert.KernelIdeal.S512x256 .f32) (v1 : Vec Ideal Cert.KernelIdeal.S4096x256 .f32)
    (v34 : Vec Ideal Cert.KernelIdeal.S256x256 .f32) (v41 : Vec Ideal Cert.KernelIdeal.S1x256 .f32) (p : Fin 512) (h : Fin 256) :
    Cert.KernelIdeal.Gen.k0_pay1 (F := Ideal) (Cert.KernelIdeal.Gen.k0_pay2 v0 v1) (Cert.KernelIdeal.Gen.k0_pay3 v34) v41 (ix2 p h)
      = Cert.Spec.kernelBlk v0 v1 v34 v41 p h := by
  refine (pay1_apply _ _ v41 p h).trans ?_
  exact congrArg₂ (fun a b => a * b + v41 (ix2 (0 : Fin 1) h)) (pay2_apply v0 v1 p h) (pay3_apply v34 p h)

end Cert.KernelIdeal.Payload

end
-- ==== Proof.KernelBody.lean ====
/-
  The kernel's run, first half: the body at one grid point.

  The launch hands the body five staging buffers at each of the eight grid points: a block of 512 rows of `x` (window 0),
  the whole of `x` (window 1: the SAME array as window 0, staged a second time), `W` (window 2), the bias as one row of
  256 (window 3: the one host operation before the region reshapes `b` into it) and the block of 512 result rows
  (window 4). The body loads the four inputs whole, computes one vector of 512 × 256 from them and stores it over the
  whole result buffer; it reads the result buffer once before that and does not use what it read.

  Here: the contents of the buffers when the region is entered (`V`: the launch memory after the reshape), each window's
  block at a point read off them (`blockAt`), what the body leaves in the result buffer as a function of the four input
  blocks (`stored`), the body's triple on whole buffers (`body_triple`), the proof data — each input buffer holds its
  block at every point, whether fetched there or kept from the point before; the array `x` is held by windows 0 and 1 at
  the two halves of the full share —, and the body's obligation at a generic point. Everything for every float instance.
-/
import proofs.«155707_g65481071399741_fold_wed_c4_273_3_alg».proof.Proof.Gen.Kernel.Launch
import proofs.«155707_g65481071399741_fold_wed_c4_273_3_alg».proof.Proof.Gen.Kernel.Skeleton
import proofs.«155707_g65481071399741_fold_wed_c4_273_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the one host operation before the region (the reshape of the bias into a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the three arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point — fetched there, or left in place since the point that
    fetched it (the block index has not moved) — for any proof data over the region-entry arrays whose body leaves
    the block where it found it. One statement per input window: the block's index type computes only at a literal window. -/
theorem before_0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

abbrev rX : Rect S512x256 := Rect.unit (s := S512x256) ![0, 0] S512x256.size inb_S512x256_S512x256_0_0
abbrev rA : Rect S4096x256 := Rect.unit (s := S4096x256) ![0, 0] S4096x256.size inb_S4096x256_S4096x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- The result buffer after the body, from the four input blocks: its one store, over the whole buffer. -/
def stored (x0 : Vec F S512x256 .f32) (x1 : Vec F S4096x256 .f32) (x2 : Vec F S256x256 .f32) (x3 : Vec F S1x256 .f32) : Vec F S512x256 .f32 :=
  View.canon [⟨rX, k0_pay1 (k0_pay2 (View.ld x0 rX) (View.ld x1 rA)) (k0_pay3 (View.ld x2 rW)) (View.ld x3 rB)⟩]

/-- The one store covers the buffer. -/
theorem stored_cover (p0 : Vec F S512x256 .f32) (y : S512x256.Idx) :
    ∃ pc ∈ ([⟨rX, p0⟩] : List (View.Piece (Elt F) S512x256 .f32)), y ∈ pc.1.set :=
  View.cover_of_tiled [⟨rX, p0⟩] S512x256.size (by rfl) y

/-! ## The body's triple -/

set_option maxHeartbeats 4000000 in
/-- On whole staging buffers, the four inputs' at contents `x0 … x3` and the result's at anything, the body runs to the
    continuation holding the inputs' as they were and the result's at `stored x0 x1 x2 x3`. -/
theorem body_triple (c : Dev nD) (E : Set ℕ) (i : grid0.Coords)
    (arg1 : Memref sig .tc .vmem S512x256 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S512x256 .f32) (harg5 : arg5.IsWhole)
    (x0 : Vec F S512x256 .f32) (x1 : Vec F S4096x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored x0 x1 x2 x3)) -∗ K ⟨⟩))
      ⊢ wp frame (wpE (defs₀ (F := F)) Variants.none c none) E (cc0__qlayer_kern i arg1 harg1 arg2 harg2 arg3 harg3 arg4 harg4 arg5 harg5) K := by
  simp only [cc0__qlayer_kern_eq_skeleton]; unfold cc0__qlayer_kern_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_cover _)

/-! ## The proof data -/

/-- The proof data of the one pipeline on core `c`: the arrays as the region finds them; after the body at point `t`
    each input's buffer at its block, the result's at `stored` of the four input blocks; the invariant the core's scoped
    buffers that are no staging buffer (there is none: the kernel keeps nothing of its own); nothing owed. The array
    `x` stands behind windows 0 and 1: each holds it at one half of the full share; `W` and the bias row at the full share. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => stored (blockAt m c 0 t) (blockAt m c 1 t) (blockAt m c 2 t) (blockAt m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents (its definition projected, never unfolded through `V`). -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) :
    (dats m 0 c).after 4 t = stored (blockAt m c 0 t) (blockAt m c 1 t) (blockAt m c 2 t) (blockAt m c 3 t) := by dsimp only [dats]

/-- Each input's current buffer holds its block at every point. -/
theorem found_0 (c : Dev nD) (t : Fin cfg0.N) (d) : (dats m 0 c).before 0 t d = blockAt m c 0 t :=
  before_0 m (dats m 0 c) (A_eq m c 0) (after_0 m c) t d
theorem found_1 (c : Dev nD) (t : Fin cfg0.N) (d) : (dats m 0 c).before 1 t d = blockAt m c 1 t :=
  before_1 m (dats m 0 c) (A_eq m c 1) (after_1 m c) t d
theorem found_2 (c : Dev nD) (t : Fin cfg0.N) (d) : (dats m 0 c).before 2 t d = blockAt m c 2 t :=
  before_2 m (dats m 0 c) (A_eq m c 2) (after_2 m c) t d
theorem found_3 (c : Dev nD) (t : Fin cfg0.N) (d) : (dats m 0 c).before 3 t d = blockAt m c 3 t :=
  before_3 m (dats m 0 c) (A_eq m c 3) (after_3 m c) t d

/-! ## The body's obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The kernel's run, second half: the launch.

  The array `x` is handed to the kernel through two of its input windows. When the region is entered the core holds each
  buffer behind a window's array whole, once; the proof data asks for the arrays window by window, so the one buffer of `x`
  is split along the share into its two halves, one for the window that stages a block of 512 rows and one for the window
  that stages the whole array; both only ever read it. The other arrays stand behind one window each and are held whole.
  The argument `b` is no window's array (the kernel is handed its reshaped copy): it passes by the region untouched and is
  read back at the end as the region found it.

  The run ends with every window's array at what the write-backs make of it (`Dat.arrAt … N`: an input its contents at
  entry, the result those overwritten block by block by what the body stored) and every bypassing buffer unchanged;
  from it, the frame (the three arguments end as launched) and the result array named.
-/
import proofs.«155707_g65481071399741_fold_wed_c4_273_3_alg».proof.Proof.KernelBody
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, window by window -/

/-- The buffers behind the windows' arrays are four: `x`, `W`, the bias row and the result. -/
theorem arrRefs_eq : Finset.univ.image (Pipeline.arrRef spec0) = {main_arg0, main_arg1, main_call0_v0, main_v0} := by decide

/-- A conjunction over those four, one by one. -/
theorem bigSep_four (Φ : Ref sig .tc → sProp 𝕄) :
    bigSep ({main_arg0, main_arg1, main_call0_v0, main_v0} : Finset (Ref sig .tc)) Φ
      = iprop(Φ main_arg0 ∗ Φ main_arg1 ∗ Φ main_call0_v0 ∗ Φ main_v0) := by
  rw [bigSep_insert (by decide), bigSep_insert (by decide), bigSep_insert (by decide), bigSep_singleton]
  rfl

/-- Each window's array as the proof data holds it at entry: the buffer behind it, whole, at the window's share. -/
theorem entry_0 (c : Dev nD) : (((cfg0.win 0).arr.view.loc (c.tc : Thread nD τ) ↦[(cfg0.win 0).arr.view.set]{(dats m 0 c).share 0} (dats m 0 c).arrAt 0 0 : sProp 𝕄))
    = (((c.tc : Thread nD τ).loc main_arg0) ↦{fullShare.left} V m c main_arg0) := by
  rw [(arr_whole0 0).set_eq_univ]; rfl
theorem entry_1 (c : Dev nD) : (((cfg0.win 1).arr.view.loc (c.tc : Thread nD τ) ↦[(cfg0.win 1).arr.view.set]{(dats m 0 c).share 1} (dats m 0 c).arrAt 1 0 : sProp 𝕄))
    = (((c.tc : Thread nD τ).loc main_arg0) ↦{fullShare.right} V m c main_arg0) := by
  rw [(arr_whole0 1).set_eq_univ]; rfl
theorem entry_2 (c : Dev nD) : (((cfg0.win 2).arr.view.loc (c.tc : Thread nD τ) ↦[(cfg0.win 2).arr.view.set]{(dats m 0 c).share 2} (dats m 0 c).arrAt 2 0 : sProp 𝕄))
    = (((c.tc : Thread nD τ).loc main_arg1) ↦{fullShare} V m c main_arg1) := by
  rw [(arr_whole0 2).set_eq_univ]; rfl
theorem entry_3 (c : Dev nD) : (((cfg0.win 3).arr.view.loc (c.tc : Thread nD τ) ↦[(cfg0.win 3).arr.view.set]{(dats m 0 c).share 3} (dats m 0 c).arrAt 3 0 : sProp 𝕄))
    = (((c.tc : Thread nD τ).loc main_call0_v0) ↦{fullShare} V m c main_call0_v0) := by
  rw [(arr_whole0 3).set_eq_univ]; rfl
theorem entry_4 (c : Dev nD) : (((cfg0.win 4).arr.view.loc (c.tc : Thread nD τ) ↦[(cfg0.win 4).arr.view.set]{(dats m 0 c).share 4} (dats m 0 c).arrAt 4 0 : sProp 𝕄))
    = (((c.tc : Thread nD τ).loc main_v0) ↦{fullShare} V m c main_v0) := by
  rw [(arr_whole0 4).set_eq_univ]; rfl

/-- The four buffers, each whole at the full share, give the five windows their arrays: the buffer of `x` split into the
    two halves of the full share. -/
theorem arrays_at_entry (c : Dev nD) :
    (Pipeline.arrBufs spec0 c (V m c) : sProp 𝕄) ⊢ (dats m 0 c).arrays ((dats m 0 c).arrAt · 0) := by
  unfold Dat.arrays Pipeline.arrBufs
  rw [bigSep_W0, entry_0, entry_1, entry_2, entry_3, entry_4, arrRefs_eq, bigSep_four]
  iintro ⟨Hx, HW, Hb, Ho⟩
  ihave Hx2 := (pointsTo_share (PosShare.mem_left_op_right fullShare)).1 $$ Hx
  icases Hx2 with ⟨Hl, Hr⟩
  isplitl [Hl]; · iexact Hl
  isplitl [Hr]; · iexact Hr
  isplitl [HW]; · iexact HW
  isplitl [Hb]; · iexact Hb
  iexact Ho

/-! ## The run -/

set_option backward.isDefEq.respectTransparency.types false in
/-- For any float values, from any memory with zero counters: every weakly fair execution of @main terminates, and in
    every final state each window's array holds what the write-backs make of it and every other unscoped buffer what
    the region found there. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := arrays_at_entry m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => (show (iprop(emp ∗ Pipeline.scopedRest spec0 c) : sProp 𝕄) ⊢ Pipeline.scopedRest spec0 c from by
      iintro ⟨-, H⟩; iexact H))
    (hout := fun c => (show (Pipeline.scopedRest spec0 c : sProp 𝕄) ⊢ iprop(emp ∗ Pipeline.scopedRest spec0 c) from by
      iintro H; isplitr; · iempintro
      iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame, and the result array -/

/-- The three argument arrays end as launched: `x` and `W` are input windows' arrays, never written; `b` passes by the
    region; and the host reshape before it writes none of the three. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).2 main_arg2 (Pipeline.mem_restRefs_of main_arg2 rfl (by decide))).trans (V_main_arg2 m c)⟩) (run_main m ρ)

/-- The same run with the result array named: what the eight write-backs leave of it. -/
theorem run_out : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1 4,
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).2 main_arg2 (Pipeline.mem_restRefs_of main_arg2 rfl (by decide))).trans (V_main_arg2 m c)⟩) (run_main m ρ)

end Cert.Kernel.Hand

end
-- ==== Proof.KernelIdealBody.lean ====
/-
  The kernel's run, first half: the body at one grid point.

  The launch hands the body five staging buffers at each of the eight grid points: a block of 512 rows of `x` (window 0),
  the whole of `x` (window 1: the SAME array as window 0, staged a second time), `W` (window 2), the bias as one row of
  256 (window 3: the one host operation before the region reshapes `b` into it) and the block of 512 result rows
  (window 4). The body loads the four inputs whole, computes one vector of 512 × 256 from them and stores it over the
  whole result buffer; it reads the result buffer once before that and does not use what it read.

  Here: the contents of the buffers when the region is entered (`V`: the launch memory after the reshape), each window's
  block at a point read off them (`blockAt`), what the body leaves in the result buffer as a function of the four input
  blocks (`stored`), the body's triple on whole buffers (`body_triple`), the proof data — each input buffer holds its
  block at every point, whether fetched there or kept from the point before; the array `x` is held by windows 0 and 1 at
  the two halves of the full share —, and the body's obligation at a generic point. Everything for every float instance.
-/
import proofs.«155707_g65481071399741_fold_wed_c4_273_3_alg».proof.Proof.Gen.KernelIdeal.Launch
import proofs.«155707_g65481071399741_fold_wed_c4_273_3_alg».proof.Proof.Gen.KernelIdeal.Skeleton
import proofs.«155707_g65481071399741_fold_wed_c4_273_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the one host operation before the region (the reshape of the bias into a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the three arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point — fetched there, or left in place since the point that
    fetched it (the block index has not moved) — for any proof data over the region-entry arrays whose body leaves
    the block where it found it. One statement per input window: the block's index type computes only at a literal window. -/
theorem before_0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

abbrev rX : Rect S512x256 := Rect.unit (s := S512x256) ![0, 0] S512x256.size inb_S512x256_S512x256_0_0
abbrev rA : Rect S4096x256 := Rect.unit (s := S4096x256) ![0, 0] S4096x256.size inb_S4096x256_S4096x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- The result buffer after the body, from the four input blocks: its one store, over the whole buffer. -/
def stored (x0 : Vec F S512x256 .f32) (x1 : Vec F S4096x256 .f32) (x2 : Vec F S256x256 .f32) (x3 : Vec F S1x256 .f32) : Vec F S512x256 .f32 :=
  View.canon [⟨rX, k0_pay1 (k0_pay2 (View.ld x0 rX) (View.ld x1 rA)) (k0_pay3 (View.ld x2 rW)) (View.ld x3 rB)⟩]

/-- The one store covers the buffer. -/
theorem stored_cover (p0 : Vec F S512x256 .f32) (y : S512x256.Idx) :
    ∃ pc ∈ ([⟨rX, p0⟩] : List (View.Piece (Elt F) S512x256 .f32)), y ∈ pc.1.set :=
  View.cover_of_tiled [⟨rX, p0⟩] S512x256.size (by rfl) y

/-! ## The body's triple -/

set_option maxHeartbeats 4000000 in
/-- On whole staging buffers, the four inputs' at contents `x0 … x3` and the result's at anything, the body runs to the
    continuation holding the inputs' as they were and the result's at `stored x0 x1 x2 x3`. -/
theorem body_triple (c : Dev nD) (E : Set ℕ) (i : grid0.Coords)
    (arg1 : Memref sig .tc .vmem S512x256 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S512x256 .f32) (harg5 : arg5.IsWhole)
    (x0 : Vec F S512x256 .f32) (x1 : Vec F S4096x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored x0 x1 x2 x3)) -∗ K ⟨⟩))
      ⊢ wp frame (wpE (defs₀ (F := F)) Variants.none c none) E (cc0__qlayer_kern i arg1 harg1 arg2 harg2 arg3 harg3 arg4 harg4 arg5 harg5) K := by
  simp only [cc0__qlayer_kern_eq_skeleton]; unfold cc0__qlayer_kern_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_cover _)

/-! ## The proof data -/

/-- The proof data of the one pipeline on core `c`: the arrays as the region finds them; after the body at point `t`
    each input's buffer at its block, the result's at `stored` of the four input blocks; the invariant the core's scoped
    buffers that are no staging buffer (there is none: the kernel keeps nothing of its own); nothing owed. The array
    `x` stands behind windows 0 and 1: each holds it at one half of the full share; `W` and the bias row at the full share. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => stored (blockAt m c 0 t) (blockAt m c 1 t) (blockAt m c 2 t) (blockAt m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents (its definition projected, never unfolded through `V`). -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) :
    (dats m 0 c).after 4 t = stored (blockAt m c 0 t) (blockAt m c 1 t) (blockAt m c 2 t) (blockAt m c 3 t) := by dsimp only [dats]

/-- Each input's current buffer holds its block at every point. -/
theorem found_0 (c : Dev nD) (t : Fin cfg0.N) (d) : (dats m 0 c).before 0 t d = blockAt m c 0 t :=
  before_0 m (dats m 0 c) (A_eq m c 0) (after_0 m c) t d
theorem found_1 (c : Dev nD) (t : Fin cfg0.N) (d) : (dats m 0 c).before 1 t d = blockAt m c 1 t :=
  before_1 m (dats m 0 c) (A_eq m c 1) (after_1 m c) t d
theorem found_2 (c : Dev nD) (t : Fin cfg0.N) (d) : (dats m 0 c).before 2 t d = blockAt m c 2 t :=
  before_2 m (dats m 0 c) (A_eq m c 2) (after_2 m c) t d
theorem found_3 (c : Dev nD) (t : Fin cfg0.N) (d) : (dats m 0 c).before 3 t d = blockAt m c 3 t :=
  before_3 m (dats m 0 c) (A_eq m c 3) (after_3 m c) t d

/-! ## The body's obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The kernel's run, second half: the launch.

  The array `x` is handed to the kernel through two of its input windows. When the region is entered the core holds each
  buffer behind a window's array whole, once; the proof data asks for the arrays window by window, so the one buffer of `x`
  is split along the share into its two halves, one for the window that stages a block of 512 rows and one for the window
  that stages the whole array; both only ever read it. The other arrays stand behind one window each and are held whole.
  The argument `b` is no window's array (the kernel is handed its reshaped copy): it passes by the region untouched and is
  read back at the end as the region found it.

  The run ends with every window's array at what the write-backs make of it (`Dat.arrAt … N`: an input its contents at
  entry, the result those overwritten block by block by what the body stored) and every bypassing buffer unchanged;
  from it, the frame (the three arguments end as launched) and the result array named.
-/
import proofs.«155707_g65481071399741_fold_wed_c4_273_3_alg».proof.Proof.KernelIdealBody
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, window by window -/

/-- The buffers behind the windows' arrays are four: `x`, `W`, the bias row and the result. -/
theorem arrRefs_eq : Finset.univ.image (Pipeline.arrRef spec0) = {main_arg0, main_arg1, main_call0_v0, main_v0} := by decide

/-- A conjunction over those four, one by one. -/
theorem bigSep_four (Φ : Ref sig .tc → sProp 𝕄) :
    bigSep ({main_arg0, main_arg1, main_call0_v0, main_v0} : Finset (Ref sig .tc)) Φ
      = iprop(Φ main_arg0 ∗ Φ main_arg1 ∗ Φ main_call0_v0 ∗ Φ main_v0) := by
  rw [bigSep_insert (by decide), bigSep_insert (by decide), bigSep_insert (by decide), bigSep_singleton]
  rfl

/-- Each window's array as the proof data holds it at entry: the buffer behind it, whole, at the window's share. -/
theorem entry_0 (c : Dev nD) : (((cfg0.win 0).arr.view.loc (c.tc : Thread nD τ) ↦[(cfg0.win 0).arr.view.set]{(dats m 0 c).share 0} (dats m 0 c).arrAt 0 0 : sProp 𝕄))
    = (((c.tc : Thread nD τ).loc main_arg0) ↦{fullShare.left} V m c main_arg0) := by
  rw [(arr_whole0 0).set_eq_univ]; rfl
theorem entry_1 (c : Dev nD) : (((cfg0.win 1).arr.view.loc (c.tc : Thread nD τ) ↦[(cfg0.win 1).arr.view.set]{(dats m 0 c).share 1} (dats m 0 c).arrAt 1 0 : sProp 𝕄))
    = (((c.tc : Thread nD τ).loc main_arg0) ↦{fullShare.right} V m c main_arg0) := by
  rw [(arr_whole0 1).set_eq_univ]; rfl
theorem entry_2 (c : Dev nD) : (((cfg0.win 2).arr.view.loc (c.tc : Thread nD τ) ↦[(cfg0.win 2).arr.view.set]{(dats m 0 c).share 2} (dats m 0 c).arrAt 2 0 : sProp 𝕄))
    = (((c.tc : Thread nD τ).loc main_arg1) ↦{fullShare} V m c main_arg1) := by
  rw [(arr_whole0 2).set_eq_univ]; rfl
theorem entry_3 (c : Dev nD) : (((cfg0.win 3).arr.view.loc (c.tc : Thread nD τ) ↦[(cfg0.win 3).arr.view.set]{(dats m 0 c).share 3} (dats m 0 c).arrAt 3 0 : sProp 𝕄))
    = (((c.tc : Thread nD τ).loc main_call0_v0) ↦{fullShare} V m c main_call0_v0) := by
  rw [(arr_whole0 3).set_eq_univ]; rfl
theorem entry_4 (c : Dev nD) : (((cfg0.win 4).arr.view.loc (c.tc : Thread nD τ) ↦[(cfg0.win 4).arr.view.set]{(dats m 0 c).share 4} (dats m 0 c).arrAt 4 0 : sProp 𝕄))
    = (((c.tc : Thread nD τ).loc main_v0) ↦{fullShare} V m c main_v0) := by
  rw [(arr_whole0 4).set_eq_univ]; rfl

/-- The four buffers, each whole at the full share, give the five windows their arrays: the buffer of `x` split into the
    two halves of the full share. -/
theorem arrays_at_entry (c : Dev nD) :
    (Pipeline.arrBufs spec0 c (V m c) : sProp 𝕄) ⊢ (dats m 0 c).arrays ((dats m 0 c).arrAt · 0) := by
  unfold Dat.arrays Pipeline.arrBufs
  rw [bigSep_W0, entry_0, entry_1, entry_2, entry_3, entry_4, arrRefs_eq, bigSep_four]
  iintro ⟨Hx, HW, Hb, Ho⟩
  ihave Hx2 := (pointsTo_share (PosShare.mem_left_op_right fullShare)).1 $$ Hx
  icases Hx2 with ⟨Hl, Hr⟩
  isplitl [Hl]; · iexact Hl
  isplitl [Hr]; · iexact Hr
  isplitl [HW]; · iexact HW
  isplitl [Hb]; · iexact Hb
  iexact Ho

/-! ## The run -/

set_option backward.isDefEq.respectTransparency.types false in
/-- For any float values, from any memory with zero counters: every weakly fair execution of @main terminates, and in
    every final state each window's array holds what the write-backs make of it and every other unscoped buffer what
    the region found there. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := arrays_at_entry m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => (show (iprop(emp ∗ Pipeline.scopedRest spec0 c) : sProp 𝕄) ⊢ Pipeline.scopedRest spec0 c from by
      iintro ⟨-, H⟩; iexact H))
    (hout := fun c => (show (Pipeline.scopedRest spec0 c : sProp 𝕄) ⊢ iprop(emp ∗ Pipeline.scopedRest spec0 c) from by
      iintro H; isplitr; · iempintro
      iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame, and the result array -/

/-- The three argument arrays end as launched: `x` and `W` are input windows' arrays, never written; `b` passes by the
    region; and the host reshape before it writes none of the three. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).2 main_arg2 (Pipeline.mem_restRefs_of main_arg2 rfl (by decide))).trans (V_main_arg2 m c)⟩) (run_main m ρ)

/-- The same run with the result array named: what the eight write-backs leave of it. -/
theorem run_out : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1 4,
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).2 main_arg2 (Pipeline.mem_restRefs_of main_arg2 rfl (by decide))).trans (V_main_arg2 m c)⟩) (run_main m ρ)

end Cert.KernelIdeal.Hand

end
-- ==== Proof.Value.lean ====
/-
  From blocks to the array.

  The kernel's eight grid points each write one block of 512 rows of the result: point t writes rows 512t … 512t + 511.
  At point t the body sees rows 512t … 512t + 511 of x (its first operand), the whole of x, the whole of W, and the bias as
  one row of 256, and leaves in the result block the kernel's block formula of those four. Row p of the block of x at
  point t is row 512t + p of x, so the block formula at (p, h) is the array formula at (512t + p, h): point t writes block
  t of the array formula. Every row r lies in exactly the block of point r / 512, so the eight blocks fill the result
  array, which therefore ends holding the array formula at every index.
-/
import proofs.«155707_g65481071399741_fold_wed_c4_273_3_alg».proof.Proof.KernelIdealBody
import proofs.«155707_g65481071399741_fold_wed_c4_273_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The zero offset of a whole-buffer rectangle. -/
theorem zero_off : (![0, 0] : Fin 2 → Nat) = fun _ => 0 := funext fun a => by fin_cases a <;> rfl

/-- The index maps over the grid: the block of x and the block of the result move with the point along the rows; the
    whole arrays stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 8 :=
  (by decide +kernel : ∀ t : Fin grid0.N, _)

/-- Entry y of the block of x at point t is entry (512t + y₀, y₁) of x. -/
theorem block_x (c : Dev nD) (t : Fin cfg0.N) (y : S512x256.Idx) (i : S4096x256.Idx)
    (h0 : (i 0).val = 512 * t.val + (y 0).val) (h1 : (i 1).val = (y 1).val) :
    (Hand.blockAt m c 0 t : S512x256.Idx → EReal) y = (m ((c : Thread nD τ).loc main_arg0) : S4096x256.Idx → EReal) i := by
  refine Eq.trans ?_ (congrFun (Hand.V_main_arg0 m c) i)
  show Hand.V m c main_arg0 (((cfg0.win 0).blk t).view.emb y) = Hand.V m c main_arg0 i
  obtain ⟨e0, e1, -⟩ := index_facts t
  refine congrArg (Hand.V m c main_arg0) ?_
  funext a; apply Fin.ext
  match a with
  | ⟨0, _⟩ => show win0_0.index t (0 : Fin 2) * 512 + 1 * (y 0).val = (i 0).val; omega
  | ⟨1, _⟩ => show win0_0.index t (1 : Fin 2) * 256 + 1 * (y 1).val = (i 1).val; omega

/-- The second operand at every point is the whole of x. -/
theorem block_xall (c : Dev nD) (t : Fin cfg0.N) :
    (Hand.blockAt m c 1 t : S4096x256.Idx → EReal) = (m ((c : Thread nD τ).loc main_arg0) : S4096x256.Idx → EReal) := by
  funext y
  refine Eq.trans ?_ (congrFun (Hand.V_main_arg0 m c) y)
  show Hand.V m c main_arg0 (((cfg0.win 1).blk t).view.emb y) = Hand.V m c main_arg0 y
  obtain ⟨-, -, e0, e1, -⟩ := index_facts t
  refine congrArg (Hand.V m c main_arg0) ?_
  funext a; apply Fin.ext
  match a with
  | ⟨0, _⟩ => show win0_1.index t (0 : Fin 2) * 4096 + 1 * (y 0).val = (y 0).val; omega
  | ⟨1, _⟩ => show win0_1.index t (1 : Fin 2) * 256 + 1 * (y 1).val = (y 1).val; omega

/-- The third operand at every point is the whole of W. -/
theorem block_w (c : Dev nD) (t : Fin cfg0.N) :
    (Hand.blockAt m c 2 t : S256x256.Idx → EReal) = (m ((c : Thread nD τ).loc main_arg1) : S256x256.Idx → EReal) := by
  funext y
  refine Eq.trans ?_ (congrFun (Hand.V_main_arg1 m c) y)
  show Hand.V m c main_arg1 (((cfg0.win 2).blk t).view.emb y) = Hand.V m c main_arg1 y
  obtain ⟨-, -, -, -, e0, e1, -⟩ := index_facts t
  refine congrArg (Hand.V m c main_arg1) ?_
  funext a; apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- The bias row as the region finds it: the bias b reshaped into one row. -/
theorem bias_row (c : Dev nD) :
    (Hand.V m c main_call0_v0 : S1x256.Idx → EReal) = shapeCast S1x256 (m ((c : Thread nD τ).loc main_arg2)) shapeCasts_S256_S1x256 := by
  dsimp only [Hand.V, Gen.hostOps0]; after_results; rfl

/-- The fourth operand at every point, at (0, h), is entry h of the bias. -/
theorem block_b (c : Dev nD) (t : Fin cfg0.N) (h : Fin 256) :
    (Hand.blockAt m c 3 t : S1x256.Idx → EReal) (ix2 (0 : Fin 1) h) = (m ((c : Thread nD τ).loc main_arg2) : S256.Idx → EReal) (ix1 h) := by
  have e : (Hand.blockAt m c 3 t : S1x256.Idx → EReal) (ix2 (0 : Fin 1) h) = (Hand.V m c main_call0_v0 : S1x256.Idx → EReal) (ix2 (0 : Fin 1) h) := by
    show Hand.V m c main_call0_v0 (((cfg0.win 3).blk t).view.emb (ix2 (0 : Fin 1) h)) = Hand.V m c main_call0_v0 (ix2 (0 : Fin 1) h)
    obtain ⟨-, -, -, -, -, -, e0, e1, -⟩ := index_facts t
    refine congrArg (Hand.V m c main_call0_v0) ?_
    funext a; apply Fin.ext
    match a with
    | ⟨0, _⟩ => show win0_3.index t (0 : Fin 2) * 1 + 1 * 0 = 0; omega
    | ⟨1, _⟩ => show win0_3.index t (1 : Fin 2) * 256 + 1 * h.val = h.val; omega
  rw [e, bias_row]
  refine shapeCast_apply _ _ _ (ix1 h) ?_
  rw [Shape.rowMajor_val_one, Shape.rowMajor_val_two]
  show h.val = 0 * 256 + h.val
  omega

/-- The array formula of the launch arrays: what the result array is to end holding. -/
abbrev arrayFormula (c : Dev nD) : S4096x256.Idx → EReal :=
  fun i => Cert.Spec.kernelOut (m ((c : Thread nD τ).loc main_arg0)) (m ((c : Thread nD τ).loc main_arg1)) (m ((c : Thread nD τ).loc main_arg2)) i

section
variable (hpay : ∀ (v0 : Vec Ideal S512x256 .f32) (v1 : Vec Ideal S4096x256 .f32) (v34 : Vec Ideal S256x256 .f32) (v41 : Vec Ideal S1x256 .f32) (p : Fin 512) (h : Fin 256),
    Gen.k0_pay1 (F := Ideal) (Gen.k0_pay2 v0 v1) (Gen.k0_pay3 v34) v41 (ix2 p h) = Cert.Spec.kernelBlk v0 v1 v34 v41 p h)
include hpay

/-- What point t writes back is block t of the array formula. -/
theorem flushed_eq (c : Dev nD) (t : Fin cfg0.N) :
    (Hand.dats (F := Ideal) m 0 c).flushed 4 t = ((cfg0.win 4).blk t).view.read (Elt Ideal) (arrayFormula m c) := by
  show (cfg0.win 4).cut (grid0.coords t) ((Hand.dats (F := Ideal) m 0 c).after 4 t) = _
  rw [Hand.after_4]
  unfold Hand.stored
  rw [View.canon_unit_zero zero_off]
  simp only [View.ld_unit_zero (S := S512x256) zero_off, View.ld_unit_zero (S := S4096x256) zero_off,
    View.ld_unit_zero (S := S256x256) zero_off, View.ld_unit_zero (S := S1x256) zero_off]
  funext j
  obtain ⟨p, h, rfl⟩ : ∃ (p : Fin 512) (h : Fin 256), j = ix2 p h := ⟨j 0, j 1, eq_ix2 j⟩
  obtain ⟨-, -, -, -, -, -, -, -, e0, e1, ht⟩ := index_facts t
  have hr : 512 * t.val + p.val < 4096 := by omega
  have hi : ((cfg0.win 4).blk t).view.emb (ix2 p h) = (ix2 (⟨512 * t.val + p.val, hr⟩ : Fin 4096) h : S4096x256.Idx) := by
    funext a; apply Fin.ext
    match a with
    | ⟨0, _⟩ => show win0_4.index t (0 : Fin 2) * 512 + 1 * p.val = 512 * t.val + p.val; omega
    | ⟨1, _⟩ => show win0_4.index t (1 : Fin 2) * 256 + 1 * h.val = h.val; omega
  show Gen.k0_pay1 (F := Ideal) (Gen.k0_pay2 (Hand.blockAt m c 0 t) (Hand.blockAt m c 1 t)) (Gen.k0_pay3 (Hand.blockAt m c 2 t)) (Hand.blockAt m c 3 t) (ix2 p h)
      = arrayFormula m c (((cfg0.win 4).blk t).view.emb (ix2 p h))
  rw [hi, hpay, block_xall, block_w]
  exact Cert.Spec.kernelBlk_rows _ _ _ _ _ p ⟨512 * t.val + p.val, hr⟩ h
    (fun k => block_x m c t (ix2 p k) (ix2 ⟨512 * t.val + p.val, hr⟩ k) rfl rfl) (block_b m c t h)

end

/-- An index of the result array is in point t's block iff each coordinate is in the block's range on its axis. -/
theorem mem_block (t : Fin cfg0.N) (i : S4096x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v0).slice (win0_4.rect t)).set ↔ _
  rw [View.set_slice_whole, Rect.mem_set_unit]
  exact Iff.rfl

/-- Every index of the result array lies in some point's block: row r in the block of point r / 512. -/
theorem covered (i : S4096x256.Idx) : ∃ t : Fin cfg0.N, (cfg0.win 4).flush t = true ∧ i ∈ ((cfg0.win 4).blk t).view.set := by
  have hi0 : (i 0).val < 4096 := (i 0).isLt
  have hi1 : (i 1).val < 256 := (i 1).isLt
  have hN : cfg0.N = 8 := N_0
  have hq : (i 0).val / 512 < cfg0.N := by rw [hN]; omega
  refine ⟨⟨(i 0).val / 512, hq⟩, flush0_4 _, ?_⟩
  rw [mem_block]
  obtain ⟨-, -, -, -, -, -, -, -, e0, e1, -⟩ := index_facts ⟨(i 0).val / 512, hq⟩
  have e0' : win0_4.index ⟨(i 0).val / 512, hq⟩ (0 : Fin 2) = (i 0).val / 512 := e0
  intro a
  match a with
  | ⟨0, _⟩ =>
    show win0_4.index ⟨(i 0).val / 512, hq⟩ (0 : Fin 2) * 512 ≤ (i 0).val ∧ (i 0).val < win0_4.index ⟨(i 0).val / 512, hq⟩ (0 : Fin 2) * 512 + 512
    omega
  | ⟨1, _⟩ =>
    show win0_4.index ⟨(i 0).val / 512, hq⟩ (1 : Fin 2) * 256 ≤ (i 1).val ∧ (i 1).val < win0_4.index ⟨(i 0).val / 512, hq⟩ (1 : Fin 2) * 256 + 256
    omega

/-- The result array after the run is the array formula of the launch arrays. -/
theorem final_out (c : Dev nD)
    (hpay : ∀ (v0 : Vec Ideal S512x256 .f32) (v1 : Vec Ideal S4096x256 .f32) (v34 : Vec Ideal S256x256 .f32) (v41 : Vec Ideal S1x256 .f32) (p : Fin 512) (h : Fin 256),
        Gen.k0_pay1 (F := Ideal) (Gen.k0_pay2 v0 v1) (Gen.k0_pay3 v34) v41 (ix2 p h) = Cert.Spec.kernelBlk v0 v1 v34 v41 p h) :
    (Hand.dats (F := Ideal) m 0 c).arrAt 4 cfg0.N
      = fun i => Cert.Spec.kernelOut (m ((c : Thread nD τ).loc main_arg0)) (m ((c : Thread nD τ).loc main_arg1)) (m ((c : Thread nD τ).loc main_arg2)) i :=
  (Hand.dats (F := Ideal) m 0 c).arrAt_eq_of_cover 4 (arrayFormula m c) (fun t _ => flushed_eq m hpay c t) covered

end Cert.KernelIdeal.Value

end
-- ==== Proof.RefValue.lean ====
/-
  The reference program, read one operation at a time, computes `Cert.Spec.refOut`.

  Each lemma below reads one stage of the program at an index built from explicit coordinates: the Gram matrix at
  (r, j); the neighbour bit at (r, j); that bit as the number 0 or 1; the neighbours' feature sum at (r, f); its mean
  over the features at r; the bit "row r has a neighbour"; the number spread over row r; and the linear layer.
-/
import proofs.«155707_g65481071399741_fold_wed_c4_273_3_alg».proof.Proof.RefReadP
import proofs.«155707_g65481071399741_fold_wed_c4_273_3_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo Cert.Spec

/-- The array `x`, as the program types it. -/
abbrev XC : Type := (⟨S4096x256, .f32⟩ : BufTy).Contents (Elt Ideal)

/-! ## The Gram matrix -/

/-- Entry (r, j) of x·xᵀ is the inner product of rows r and j. -/
theorem gram_at (x0 : XC) (r j : Fin 4096) :
    val_main_v1 (F := Ideal) x0 (ix2 r j) = gram x0 r j := by
  refine (val_main_v1_apply x0 (ix2 r j)).trans ?_
  unfold gram
  refine Finset.sum_congr rfl fun k _ => ?_
  rw [val_main_v0_apply]
  have e1 : lidx_main_v1 (ix2 r j) k = ix2 r k :=
    funext fun a => Fin.ext (by match a with | ⟨0, _⟩ => rfl | ⟨1, _⟩ => rfl)
  have e2 : idx_main_v0 (ridx_main_v1 (ix2 r j) k) = ix2 j k :=
    funext fun a => Fin.ext (by match a with | ⟨0, _⟩ => rfl | ⟨1, _⟩ => rfl)
  rw [e1, e2]

/-! ## The neighbour bit -/

/-- Two row numbers below 4096 are equal exactly when their 32-bit words are. -/
theorem word_eq_iff (r j : Fin 4096) : BitVec.ofNat 32 r.val = BitVec.ofNat 32 j.val ↔ r = j := by
  constructor
  · intro h
    have h' := congrArg BitVec.toNat h
    simp only [BitVec.toNat_ofNat] at h'
    have hr := r.isLt
    have hj := j.isLt
    exact Fin.ext (by omega)
  · rintro rfl; rfl

/-- The comparison of the squared Gram entry with the threshold is the bit of "j is near r". -/
theorem ge_at (x0 : XC) (r j : Fin 4096) :
    val_main_v4 (F := Ideal) x0 (ix2 r j) = BitVec.ofBool (decide (near x0 r j)) := by
  rw [val_main_v4_apply, val_main_v2_apply, gram_at, val_main_v3_apply, val_main_cst_apply]
  rfl

/-- The negated comparison of the row number with the column number is the bit of "r and j differ". -/
theorem off_diag_at (r j : Fin 4096) :
    val_main_v10 (F := Ideal) (ix2 r j) = BitVec.ofBool (decide (r ≠ j)) := by
  rw [val_main_v10_apply, val_main_v9_apply, val_main_v8_apply, val_main_v5_apply, val_main_v6_apply, val_main_v7_apply,
    val_main_c_apply]
  show ~~~(BitVec.ofBool (BitVec.ofNat 32 r.val + 0#32 == BitVec.ofNat 32 j.val)) = _
  rw [BitVec.add_zero]
  by_cases h : r = j
  · subst h; simp
  · have hb : (BitVec.ofNat 32 r.val == BitVec.ofNat 32 j.val) = false :=
      beq_eq_false_iff_ne.2 fun e => h ((word_eq_iff r j).1 e)
    rw [hb, decide_eq_true (show r ≠ j from h)]
    rfl

/-- The mask at (r, j) is the bit of "j is a neighbour of r". -/
theorem mask_at (x0 : XC) (r j : Fin 4096) :
    val_main_v11 (F := Ideal) x0 (ix2 r j) = BitVec.ofBool (decide (nbr x0 r j)) := by
  rw [val_main_v11_apply, ge_at, off_diag_at]
  unfold nbr
  by_cases h1 : near x0 r j <;> by_cases h2 : r = j <;> simp [h1, h2, IntOp.andi]

/-- Read as a number, the mask at (r, j) is 1 for a neighbour and 0 otherwise. -/
theorem maskf_at (x0 : XC) (r j : Fin 4096) :
    val_main_v12 (F := Ideal) x0 (ix2 r j) = if nbr x0 r j then (1 : EReal) else 0 := by
  rw [val_main_v12_apply, mask_at]
  show (((BitVec.ofBool (decide (nbr x0 r j))).toNat : ℝ) : EReal) = _
  by_cases h : nbr x0 r j
  · rw [if_pos h]; simp [h]
  · rw [if_neg h]; simp [h]

/-! ## The neighbours' feature sum and its mean -/

/-- Entry (r, f) of maskf·x is feature f of the sum of the rows that are neighbours of r. -/
theorem nbrSum_at (x0 : XC) (r : Fin 4096) (f : Fin 256) :
    val_main_v13 (F := Ideal) x0 (ix2 r f) = nbrSum x0 r f := by
  refine (val_main_v13_apply x0 (ix2 r f)).trans ?_
  unfold nbrSum
  refine Finset.sum_congr rfl fun k _ => ?_
  have e1 : lidx_main_v13 (ix2 r f) k = ix2 r k :=
    funext fun a => Fin.ext (by match a with | ⟨0, _⟩ => rfl | ⟨1, _⟩ => rfl)
  have e2 : ridx_main_v13 (ix2 r f) k = ix2 k f :=
    funext fun a => Fin.ext (by match a with | ⟨0, _⟩ => rfl | ⟨1, _⟩ => rfl)
  rw [e1, e2, maskf_at]

/-- The sum over the features, started from the zero word, and divided by the number of features. -/
theorem nbrMean_at (x0 : XC) (r : Fin 4096) :
    val_main_v16 (F := Ideal) x0 (ix1 r) = nbrMean x0 r := by
  rw [val_main_v16_apply, val_main_v14_apply, val_main_v15_apply, val_main_cst_1_apply, val_main_cst_0_apply]
  unfold nbrMean nF
  rw [Ideal.hostDivf_def, Ideal.ofBits_def, Ideal.ofBits_def, Ideal.ofBits_zero_f32, zero_add]
  refine congrArg (fun s => Ideal.div s _) (Finset.sum_congr rfl fun k _ => ?_)
  have e : idx_main_v14 (ix1 r) k = ix2 r k :=
    funext fun a => Fin.ext (by match a with | ⟨0, _⟩ => rfl | ⟨1, _⟩ => rfl)
  rw [e, nbrSum_at]

/-! ## The bit "row r has a neighbour" -/

/-- The `or` of finitely many bits, started from the zero bit, is 1 exactly when one of them is. -/
theorem fold_ori_eq_one {ι : Type} (s : Finset ι) (g : ι → BitVec 1) :
    s.fold IntOp.ori 0#1 g = 1#1 ↔ ∃ k ∈ s, g k = 1#1 := by
  classical
  induction s using Finset.induction_on with
  | empty => simp
  | insert a s ha ih =>
    rw [Finset.fold_insert ha, Finset.exists_mem_insert, ← ih]
    generalize g a = u
    generalize Finset.fold IntOp.ori 0#1 g s = v
    revert u v
    decide

/-- A bit that is 1 exactly when `P` holds is the bit of `P`. -/
theorem eq_ofBool_of_iff {b : BitVec 1} {P : Prop} [Decidable P] (h : b = 1#1 ↔ P) :
    b = BitVec.ofBool (decide P) := by
  by_cases hp : P
  · rw [decide_eq_true hp]; exact h.2 hp
  · rw [decide_eq_false hp]
    rcases BitVec.eq_zero_or_eq_one b with h0 | h1
    · exact h0
    · exact absurd (h.1 h1) hp

/-- The `or` over row r of the mask is the bit of "some row is a neighbour of r". -/
theorem has_at (x0 : XC) (r : Fin 4096) :
    val_main_v17 (F := Ideal) x0 (ix1 r) = BitVec.ofBool (decide (∃ j, nbr x0 r j)) := by
  have hR : S4096x4096.Reduces [1] S4096 := by decide
  have hl : ∀ k : Fin 4096, hR.lift (ix1 r) k = ix2 r k := fun k =>
    funext fun a => Fin.ext (by match a with | ⟨0, _⟩ => rfl | ⟨1, _⟩ => rfl)
  refine eq_ofBool_of_iff ?_
  unfold val_main_v17
  rw [Host.reduce_eq_fold_single IntOp.ori _ _ reducesTo_S4096x4096_S4096_d1 hR h_S_ (ix1 r)]
  refine (fold_ori_eq_one (Finset.univ : Finset (Fin 4096))
    (fun k => val_main_v11 (F := Ideal) x0 (hR.lift (ix1 r) k))).trans ?_
  constructor
  · rintro ⟨k, _, hk⟩
    have hk' : val_main_v11 (F := Ideal) x0 (hR.lift (ix1 r) k) = 1#1 := hk
    rw [hl, mask_at] at hk'
    refine ⟨k, ?_⟩
    by_contra hn
    rw [decide_eq_false hn] at hk'
    exact absurd hk' (by decide)
  · rintro ⟨j, hj⟩
    refine ⟨j, Finset.mem_univ _, ?_⟩
    show val_main_v11 (F := Ideal) x0 (hR.lift (ix1 r) j) = 1#1
    rw [hl, mask_at, decide_eq_true hj]
    rfl

/-! ## The number spread over a row, and the linear layer -/

/-- Every entry of row r after the selection is the mean for a row with a neighbour and zero otherwise. -/
theorem agg_at (x0 : XC) (r : Fin 4096) (f : Fin 256) :
    val_main_v21 (F := Ideal) x0 (ix2 r f) = agg x0 r := by
  have e1 : idx_main_v18 (idx_main_call0_v1 (ix2 r f)) = ix1 r :=
    funext fun a => Fin.ext (by match a with | ⟨0, _⟩ => rfl)
  have e2 : idx_main_v19 (idx_main_v20 (ix2 r f)) = ix1 r :=
    funext fun a => Fin.ext (by match a with | ⟨0, _⟩ => rfl)
  rw [val_main_v21_apply, val_main_call0_v1_apply, val_main_v18_apply, e1, has_at, val_main_v20_apply,
    val_main_v19_apply, e2, nbrMean_at, val_main_call0_v2_apply, val_main_call0_v0_apply, val_main_cst_3_apply,
    Ideal.ofBits_def, Ideal.ofBits_zero_f32]
  unfold agg
  by_cases h : ∃ j, nbr x0 r j
  · rw [decide_eq_true h, if_pos h]; exact select_one _ _
  · rw [decide_eq_false h, if_neg h]; exact select_zero _ _

/-- The reference's result is `refOut`. -/
theorem ref_eq (x0 : (⟨Cert.ReferenceIdeal.S4096x256, .f32⟩ : BufTy).Contents (Elt Ideal))
    (x1 : (⟨Cert.ReferenceIdeal.S256x256, .f32⟩ : BufTy).Contents (Elt Ideal))
    (x2 : (⟨Cert.ReferenceIdeal.S256, .f32⟩ : BufTy).Contents (Elt Ideal)) :
    Cert.ReferenceIdeal.ReadP.val_main_v26 (F := Ideal) x0 x1 x2 = Cert.Spec.refOut x0 x1 x2 := by
  funext i
  obtain ⟨r, h, rfl⟩ : ∃ (r : Fin 4096) (h : Fin 256), i = ix2 r h := ⟨i 0, i 1, eq_ix2 i⟩
  rw [val_main_v26_apply, val_main_v23_apply, val_main_v25_apply, val_main_v24_apply, Ideal.addf_def]
  unfold refOut
  have e3 : idx_main_v24 (idx_main_v25 (ix2 r h)) = ix1 h :=
    funext fun a => Fin.ext (by match a with | ⟨0, _⟩ => rfl)
  rw [e3]
  refine congrArg (· + x2 (ix1 h)) (Finset.sum_congr rfl fun k _ => ?_)
  have e1 : lidx_main_v23 (ix2 r h) k = ix2 r k :=
    funext fun a => Fin.ext (by match a with | ⟨0, _⟩ => rfl | ⟨1, _⟩ => rfl)
  have e2 : idx_main_v22 (ridx_main_v23 (ix2 r h) k) = ix2 h k :=
    funext fun a => Fin.ext (by match a with | ⟨0, _⟩ => rfl | ⟨1, _⟩ => rfl)
  rw [val_main_v22_apply, e1, e2, agg_at]

end Cert.ReferenceIdeal.RefValue

end
-- ==== Proof.RefClaims.lean ====
/-
  The reference's half of the assembly.

  The reference program's run ends, on every device, with its result buffer holding the composition of its printed
  operations applied to the three argument arrays, and with the arguments as they were. Two consequences are drawn:
    * dropping the result, the program runs and leaves its arguments unchanged (its frame);
    * given that the composition, read as one function of the arrays, is `refOut` (the hypothesis `href`, proved
      elsewhere index by index), the result buffer ends at `refOut` of the arguments.
  The composed term is never opened here: it is carried from the run's statement to `refOut` by two named equations,
  "the composed term is the last stage" and "the last stage is `refOut`".
-/
import proofs.«155707_g65481071399741_fold_wed_c4_273_3_alg».proof.Defs
import proofs.«155707_g65481071399741_fold_wed_c4_273_3_alg».proof.Proof.Gen.ReferenceIdeal
import proofs.«155707_g65481071399741_fold_wed_c4_273_3_alg».proof.Proof.Gen.Pre_finite_inputs
import proofs.«155707_g65481071399741_fold_wed_c4_273_3_alg».proof.Proof.RefRunP
import proofs.«155707_g65481071399741_fold_wed_c4_273_3_alg».proof.Proof.RefReadP
import proofs.«155707_g65481071399741_fold_wed_c4_273_3_alg».proof.Proof.Spec

noncomputable section

open Idealize.ShloMosaic Idealize.ShloMosaic.TcCoe Idealize.SL.Sem

namespace Cert.Proof.Ref

/-- The reference runs and its arguments end unchanged: its run, with what it says of the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The reference's result buffer ends at `refOut` of the three argument arrays, the arguments unchanged, once the
    last stage of the program is known to be `refOut` as a function of the arrays. -/
theorem ref_run
    (href : ∀ x0 x1 x2, Cert.ReferenceIdeal.ReadP.val_main_v26 (F := Ideal) x0 x1 x2 = Cert.Spec.refOut x0 x1 x2)
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v26)
          = (fun i => Cert.Spec.refOut
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)) i)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans ((Cert.ReferenceIdeal.ReadP.val_main_v26_eq (F := Ideal) _ _ _).trans (href _ _ _)), (h c).2⟩)
    (Cert.ReferenceIdeal.ValueP.run (F := Ideal) m' ρ')

end Cert.Proof.Ref

end
-- ==== Proof.lean ====
/-
  The kernel and its reference compute the same array on the extended reals, whenever every input entry is a real number.

  Inputs: `x` (4096 rows of 256 features), `W` (256 × 256), `b` (256). Call row `j` NEAR row `r` when the square of
  the inner product of the two rows reaches the threshold (the single-precision word nearest 0.85), and a NEIGHBOUR of
  `r` when moreover `j ≠ r`. The reference sums the neighbours' rows, averages that sum over its 256 features into one
  number per row (zero for a row without a neighbour), spreads the number over a row of 256 and applies the linear
  layer `· Wᵀ + b`. The kernel never forms the neighbour sums: for a block of 512 rows at a time against the whole of
  `x`, it adds up the ROW SUMS of all near rows and takes the row's own out again when the row is near itself (its squared
  norm decides), counts the near rows the same way to know whether a neighbour exists, divides by 256, and multiplies by
  the row sums of `W` before adding `b`. The two agree because, among real numbers, a sum of sums may be taken in the
  other order, a constant factor comes out of a sum, and a term added and then subtracted is gone; none of the three is a
  law of the extended reals, which is why the precondition (every input finite) is used.

  The parts, each in a module of its own:
    Spec        both programs' results as functions of the three arrays, index by index;
    Algebra     the two functions agree on real arrays;
    Finite      the precondition makes every entry of `x` and `W` a real number;
    Payload     the kernel body's arithmetic on one block, entry by entry, is the block formula;
    KernelBody / KernelIdealBody, KernelRun / KernelIdealRun
                the kernel's run at the word level and at the ideal instance: the body at one grid point, the launch
                (the array `x` stands behind two of the kernel's input windows and is held by each at half the full
                share), the frame, and the result array as what the eight write-backs leave;
    Value       the eight blocks written back fill the result array with the kernel's function of the launch arrays;
    RefRunP, RefReadP (generated, patched), RefValue, RefClaims
                the reference's run, its operations read at an index, their composition as the reference's function,
                and the reference's frame.
  Nothing of the kernel's idealization was rewritten (its text is the word-level kernel's), so `preserves` is `True`.
-/
import proofs.«155707_g65481071399741_fold_wed_c4_273_3_alg».proof.Defs
import proofs.«155707_g65481071399741_fold_wed_c4_273_3_alg».proof.Proof.Gen.Kernel
import proofs.«155707_g65481071399741_fold_wed_c4_273_3_alg».proof.Proof.Gen.Kernel.Skeleton
import proofs.«155707_g65481071399741_fold_wed_c4_273_3_alg».proof.Proof.Gen.Kernel.Launch
import proofs.«155707_g65481071399741_fold_wed_c4_273_3_alg».proof.Proof.Gen.Kernel.Points
import proofs.«155707_g65481071399741_fold_wed_c4_273_3_alg».proof.Proof.Gen.KernelIdeal
import proofs.«155707_g65481071399741_fold_wed_c4_273_3_alg».proof.Proof.Gen.KernelIdeal.Skeleton
import proofs.«155707_g65481071399741_fold_wed_c4_273_3_alg».proof.Proof.Gen.KernelIdeal.Launch
import proofs.«155707_g65481071399741_fold_wed_c4_273_3_alg».proof.Proof.Gen.KernelIdeal.Points
import proofs.«155707_g65481071399741_fold_wed_c4_273_3_alg».proof.Proof.Gen.ReferenceIdeal
import proofs.«155707_g65481071399741_fold_wed_c4_273_3_alg».proof.Proof.RefRunP
import proofs.«155707_g65481071399741_fold_wed_c4_273_3_alg».proof.Proof.RefReadP
import proofs.«155707_g65481071399741_fold_wed_c4_273_3_alg».proof.Proof.Gen.Pre_finite_inputs
import proofs.«155707_g65481071399741_fold_wed_c4_273_3_alg».proof.Proof.Spec
import proofs.«155707_g65481071399741_fold_wed_c4_273_3_alg».proof.Proof.Algebra
import proofs.«155707_g65481071399741_fold_wed_c4_273_3_alg».proof.Proof.Finite
import proofs.«155707_g65481071399741_fold_wed_c4_273_3_alg».proof.Proof.Payload
import proofs.«155707_g65481071399741_fold_wed_c4_273_3_alg».proof.Proof.KernelRun
import proofs.«155707_g65481071399741_fold_wed_c4_273_3_alg».proof.Proof.KernelIdealRun
import proofs.«155707_g65481071399741_fold_wed_c4_273_3_alg».proof.Proof.Value
import proofs.«155707_g65481071399741_fold_wed_c4_273_3_alg».proof.Proof.RefValue
import proofs.«155707_g65481071399741_fold_wed_c4_273_3_alg».proof.Proof.RefClaims
import Idealize.ShloMosaic.Adequacy
import Idealize.ShloMosaic.Init

noncomputable section

namespace Cert.Proof

open Idealize.ShloMosaic Idealize.SL.Sem Cert.Kernel

/-- The word-level kernel runs and leaves its three arguments as launched. -/
theorem frame_p : Cert.frame_Kernel := fun m ρ _ => Cert.Kernel.Hand.frame (F := Bits) m ρ

/-- So does the kernel read at the ideal instance. -/
theorem frame_pi : Cert.frame_KernelIdeal := fun m ρ _ => Cert.KernelIdeal.Hand.frame (F := Ideal) m ρ

/-- The idealization rewrote no operation. -/
theorem preserves : Cert.preserves_Kernel_KernelIdeal := trivial

/-- From memories that agree on the arguments, under the precondition: the kernel's result array ends at the kernel's
    function of the arrays (its run, then the eight blocks written back), the reference's at the reference's function (its
    run, its operations composed); the arrays are real by the precondition, and on real arrays the two functions agree. -/
theorem algebraic : Cert.algebraic_KernelIdeal_ReferenceIdeal := by
  intro m ρ m' ρ' hpre hagree
  refine ⟨_, ?_, Cert.Proof.Ref.ref_run Cert.ReferenceIdeal.RefValue.ref_eq m' ρ'⟩
  refine (θ_run Cert.KernelIdeal.defs _ _).mono (fun _ h c => ⟨(h c).1.trans ?_, (h c).2⟩)
    (Cert.KernelIdeal.Hand.run_out (F := Ideal) m ρ)
  rw [Cert.KernelIdeal.Value.final_out m c Cert.KernelIdeal.Payload.payload_apply,
    (hagree c).1, (hagree c).2.1, (hagree c).2.2]
  funext i
  exact (Cert.Spec.refOut_eq_kernelOut _ _ _ (Cert.Proof.Finite.real_of_pre m hpre c).1
    (Cert.Proof.Finite.real_of_pre m hpre c).2 i).symm

theorem claim : Cert.Claim :=
  ⟨Cert.Kernel.Gen.facts, Cert.KernelIdeal.Gen.facts, Cert.ReferenceIdeal.Gen.facts, Cert.Pre_finite_inputs.Gen.facts,
    frame_p, frame_pi, Cert.Proof.Ref.frame_ri, preserves, algebraic⟩

end Cert.Proof

end
